-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x4096 : Shape := ⟨2, ![1024, 4096]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  main_v18

def fn {F : FTy → Type} [FloatOps F] (main_arg0 : FVec F S4096x1024 .f32) (main_arg1 : FVec F S1024x4096 .f32) (main_arg2 : FVec F S4096x1024 .f32) (main_arg3 : FVec F S1x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_v13 main_v16
-- ==== Kernel.lean ====
abbrev S4096x1024 : Shape := ⟨2, ![4096, 1024]⟩
abbrev S1024x4096 : Shape := ⟨2, ![1024, 4096]⟩
abbrev S1x1024 : Shape := ⟨2, ![1, 1024]⟩
abbrev S1000x4096 : Shape := ⟨2, ![1000, 4096]⟩
abbrev S4096x1000 : Shape := ⟨2, ![4096, 1000]⟩
abbrev S1024x1024 : Shape := ⟨2, ![1024, 1024]⟩
abbrev S1000x1024 : Shape := ⟨2, ![1000, 1024]⟩

abbrev nBuf : Space → Nat
  | .hbm => 6
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S1x1024, .f32⟩
  | .hbm, ⟨4, _⟩ => ⟨S1000x4096, .f32⟩
  | .hbm, ⟨5, _⟩ => ⟨S4096x1000, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1000x1024, .f32⟩
  | .local _ .vmem, ⟨8, _⟩ => ⟨S1000x1024, .f32⟩
  | .local _ .vmem, ⟨9, _⟩ => ⟨S1024x4096, .bf16⟩
  | .local _ .vmem, ⟨10, _⟩ => ⟨S4096x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c4_i32 : BitVec 32 := 4#32
  let v0 : BitVec 1 := Scalar.cmpi .slt arg0 c4_i32
  let v1 : BitVec 32 := Scalar.extui v0
  let c0_i32 : BitVec 32 := 0#32
  let v2 : BitVec 1 := Scalar.cmpi .ne v1 c0_i32
  v2

def k0_mult1 (i : grid0.Coords) : BitVec 32 :=
  let arg0 : BitVec 32 := BitVec.ofNat 32 (i 0).val
  let c1024_i32 : BitVec 32 := 1024#32
  let v6 : BitVec 32 := Scalar.muli arg0 c1024_i32
  v6
def k0_off1 (i : grid0.Coords) : Fin 2 → Nat :=
  let c0_3 : Index := 0#32
  let arg0 : BitVec 32 := BitVec.ofNat 32 (i 0).val
  let c1024_i32 : BitVec 32 := 1024#32
  let v6 : BitVec 32 := Scalar.muli arg0 c1024_i32
  let v7 : BitVec 32 := v6
  let v10 : Index := Scalar.indexCast v7
  ![0, v10.toNat]
def k0_off2 (i : grid0.Coords) : Fin 2 → Nat :=
  let arg0 : BitVec 32 := BitVec.ofNat 32 (i 0).val
  let c1024_i32 : BitVec 32 := 1024#32
  let v6 : BitVec 32 := Scalar.muli arg0 c1024_i32
  let v7 : BitVec 32 := v6
  let v16 : Index := Scalar.indexCast v7
  let c0_6 : Index := 0#32
  ![v16.toNat, 0]
def k0_cond2 (i : grid0.Coords) : BitVec 1 :=
  let arg0 : BitVec 32 := BitVec.ofNat 32 (i 0).val
  let c4_i32_0 : BitVec 32 := 4#32
  let v3 : BitVec 1 := Scalar.cmpi .sge arg0 c4_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1000x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S1000x4096_S4096x1000_1_0 : S1000x4096.Transposes [1, 0] S4096x1000
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  shapeCasts_S1024x1024_S1024x1024 : S1024x1024.ShapeCasts S1024x1024
  inb_S1024x4096_S1024x4096_0_0 : ∀ a, (![0, 0] : Fin 2 → Nat) a + S1024x4096.size a ≤ S1024x4096.size a
  h_S1024x4096 : 0 < S1024x4096.numel
  inb_S4096x1024_S4096x1024_0_0 : ∀ a, (![0, 0] : Fin 2 → Nat) a + S4096x1024.size a ≤ S4096x1024.size a
  h_S4096x1024 : 0 < S4096x1024.numel
  inb_S1x1024_S1x1024_0_0 : ∀ a, (![0, 0] : Fin 2 → Nat) a + S1x1024.size a ≤ S1x1024.size a
  h_S1x1024 : 0 < S1x1024.numel
  broadcasts_S1x1024_S1024x1024 : S1x1024.Broadcasts S1024x1024
  transposes_S1024x1024_p1_0_S1024x1024 : S1024x1024.Transposes [1, 0] S1024x1024
  slices_S1024x1024_o0_0_S1000x1024 : S1024x1024.Slices ![0, 0] S1000x1024
  inb_S1000x1024_S1000x1024_0_0 : ∀ a, (![0, 0] : Fin 2 → Nat) a + S1000x1024.size a ≤ S1000x1024.size a
  h_S1000x1024 : 0 < S1000x1024.numel
  dot_S1024x1024_S1024x4096_S1024x4096_1_0_0_1_n_n_wf : DotDims.WF S1024x1024 S1024x4096 S1024x4096 [1] [0] [0] [1] [] []
  dot_S1024x4096_S4096x1024_S1024x1024_1_0_0_1_n_n_wf : DotDims.WF S1024x4096 S4096x1024 S1024x1024 [1] [0] [0] [1] [] []
  hrank0 : 0 < grid0.rank
  k0_mult1_dvd : ∀ i : grid0.Coords, ∀ (k0_h1 : k0_cond1 i = 1#1), 1024 ∣ (k0_mult1 i).toNat
  k0_off1_inb : ∀ i : grid0.Coords, ∀ (k0_h1 : k0_cond1 i = 1#1), ∀ a, (k0_off1 i) a + S1024x1024.size a ≤ S1024x4096.size a
  k0_off1_packedbf16 : ∀ i : grid0.Coords, ∀ (k0_h1 : k0_cond1 i = 1#1), (Rect.unit (s := S1024x4096) (k0_off1 i) S1024x1024.size (k0_off1_inb i k0_h1)).PackedRows (EltTy.packing .bf16)
  k0_off2_inb : ∀ i : grid0.Coords, ∀ (k0_h1 : k0_cond1 i = 1#1), ∀ a, (k0_off2 i) a + S1024x1024.size a ≤ S4096x1024.size a
  k0_off2_packedbf16 : ∀ i : grid0.Coords, ∀ (k0_h1 : k0_cond1 i = 1#1), (Rect.unit (s := S4096x1024) (k0_off2 i) S1024x1024.size (k0_off2_inb i k0_h1)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x4096.size a
  hwx0_1 : ∀ i : grid0.Coords, EltTy.bits .f32 = 32 ∨ (Rect.block (s := S1024x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x1024.size a
  hwx0_2 : ∀ i : grid0.Coords, EltTy.bits .f32 = 32 ∨ (Rect.block (s := S4096x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x1024.size a ≤ S1000x4096.size a
  hwx0_4 : ∀ i : grid0.Coords, EltTy.bits .f32 = 32 ∨ (Rect.block (s := S1000x4096) S1000x1024.size (cc0_transform_4 i) (hinb0_4 i)).WholeWords (EltTy.packing .f32)

variable [Facts₀]

def dot_S1024x1024_S1024x4096_S1024x4096_1_0_0_1_n_n : DotDims S1024x1024 S1024x4096 S1024x4096 where
  lhsContracting := [1]
  rhsContracting := [0]
  lhsNonContracting := [0]
  rhsNonContracting := [1]
  lhsBatch := []
  rhsBatch := []
  wf := dot_S1024x1024_S1024x4096_S1024x4096_1_0_0_1_n_n_wf
def dot_S1024x4096_S4096x1024_S1024x1024_1_0_0_1_n_n : DotDims S1024x4096 S4096x1024 S1024x1024 where
  lhsContracting := [1]
  rhsContracting := [0]
  lhsNonContracting := [0]
  rhsNonContracting := [1]
  lhsBatch := []
  rhsBatch := []
  wf := dot_S1024x4096_S4096x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0) S1000x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x1024 : Shape := ⟨2, ![4096, 1024]⟩
abbrev S1024x4096 : Shape := ⟨2, ![1024, 4096]⟩
abbrev S1x1024 : Shape := ⟨2, ![1, 1024]⟩
abbrev S4096x1000 : Shape := ⟨2, ![4096, 1000]⟩
abbrev S256x1024 : Shape := ⟨2, ![256, 1024]⟩
abbrev S256x4096 : Shape := ⟨2, ![256, 4096]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1000, .f32⟩
  | .local _ .vmem, ⟨0, _⟩ => ⟨S256x1024, .f32⟩
  | .local _ .vmem, ⟨1, _⟩ => ⟨S256x1024, .f32⟩
  | .local _ .vmem, ⟨2, _⟩ => ⟨S1024x4096, .f32⟩
  | .local _ .vmem, ⟨3, _⟩ => ⟨S4096x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S4096x1024_S4096x1000_0_0 : S4096x1024.Slices ![0, 0] S4096x1000
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  inb_S4096x1024_S4096x1024_0_0 : ∀ a, (![0, 0] : Fin 2 → Nat) a + S4096x1024.size a ≤ S4096x1024.size a
  h_S4096x1024 : 0 < S4096x1024.numel
  inb_S1x1024_S1x1024_0_0 : ∀ a, (![0, 0] : Fin 2 → Nat) a + S1x1024.size a ≤ S1x1024.size a
  h_S1x1024 : 0 < S1x1024.numel
  broadcasts_S1x1024_S256x1024 : S1x1024.Broadcasts S256x1024
  dot_S256x1024_S1024x4096_S256x4096_1_0_0_1_n_n_wf : DotDims.WF S256x1024 S1024x4096 S256x4096 [1] [0] [0] [1] [] []
  dot_S256x4096_S4096x1024_S256x1024_1_0_0_1_n_n_wf : DotDims.WF S256x4096 S4096x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .f32 = 32 ∨ (Rect.block (s := S1024x4096) S1024x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x1024.size a ≤ S4096x1024.size a
  hwx0_2 : ∀ i : grid0.Coords, EltTy.bits .f32 = 32 ∨ (Rect.block (s := S4096x1024) S4096x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S4096x1024.size a
  hwx0_4 : ∀ i : grid0.Coords, EltTy.bits .f32 = 32 ∨ (Rect.block (s := S4096x1024) S256x1024.size (cc0_transform_4 i) (hinb0_4 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0) S256x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== Proof.KWordRuns.lean ====
/-
  The kernel body's two runs, on whole staging buffers and whole scratch buffers at NAMED contents.

  The grid has eight points. At a point of the first phase (the first four points) the body reads one
  1024 x 1024 chunk of each weight matrix from its staging buffer, changes its format, and overwrites with it one
  chunk of a scratch buffer: columns `[o, o + 1024)` of the first scratch (1024 x 4096), rows `[o, o + 1024)` of
  the second (4096 x 1024), `o` being 1024 times the point; everything else in the two scratch buffers, and the
  output's staging buffer, is left as it was found. At a point of the second phase (the last four) the body reads a
  block of input rows, BOTH WHOLE scratch buffers and the bias row, and fills the output's staging buffer with one
  payload of those four; the scratch buffers are left as found.
  Each run is the body's weakest precondition under the point's two branch conditions, found by symbolic execution
  of the body's skeleton; what a chunk store leaves in a scratch buffer is stated as a relation between the contents
  before and after (`ColsUpd`, `RowsUpd`: the chunk holds the payload, every other entry is unchanged).
-/
import proofs.«158633_g2000700481452298_pallasbulk_1136_19_alg».proof.Proof.Gen.Kernel.Frame
import proofs.«158633_g2000700481452298_pallasbulk_1136_19_alg».proof.Proof.Gen.Kernel.Skeleton
import Idealize.ShloMosaic.Lib.WritesUnit

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes whole -/

/-- A whole 1024 x 1024 staging buffer (an input block, a weight chunk). -/
abbrev rW : Rect S1024x1024 := Rect.unit (s := S1024x1024) ![0, 0] S1024x1024.size inb_S1024x1024_S1024x1024_0_0
/-- The whole bias row. -/
abbrev rB : Rect S1x1024 := Rect.unit (s := S1x1024) ![0, 0] S1x1024.size inb_S1x1024_S1x1024_0_0
/-- The whole first scratch buffer. -/
abbrev rS0 : Rect S1024x4096 := Rect.unit (s := S1024x4096) ![0, 0] S1024x4096.size inb_S1024x4096_S1024x4096_0_0
/-- The whole second scratch buffer. -/
abbrev rS1 : Rect S4096x1024 := Rect.unit (s := S4096x1024) ![0, 0] S4096x1024.size inb_S4096x1024_S4096x1024_0_0
/-- The whole output block. -/
abbrev rO : Rect S1000x1024 := Rect.unit (s := S1000x1024) ![0, 0] S1000x1024.size inb_S1000x1024_S1000x1024_0_0

/-! ## What a chunk store leaves -/

/-- `s'` is `s` with columns `[o, o + 1024)` overwritten by the 1024 x 1024 array `w`: entry `(r, o + q)` of `s'` is
    entry `(r, q)` of `w`, and an entry whose column is outside the chunk is unchanged. -/
def ColsUpd (o : ℕ) (s s' : Vec F S1024x4096 .bf16) (w : Vec F S1024x1024 .bf16) : Prop :=
  (∀ (y : S1024x4096.Idx) (x : S1024x1024.Idx), (y 0).val = (x 0).val → (y 1).val = o + (x 1).val → s' y = w x)
  ∧ (∀ y : S1024x4096.Idx, ((y 1).val < o ∨ o + 1024 ≤ (y 1).val) → s' y = s y)

/-- `s'` is `s` with rows `[o, o + 1024)` overwritten by the 1024 x 1024 array `w`: entry `(o + q, r)` of `s'` is
    entry `(q, r)` of `w`, and an entry whose row is outside the chunk is unchanged. -/
def RowsUpd (o : ℕ) (s s' : Vec F S4096x1024 .bf16) (w : Vec F S1024x1024 .bf16) : Prop :=
  (∀ (y : S4096x1024.Idx) (x : S1024x1024.Idx), (y 0).val = o + (x 0).val → (y 1).val = (x 1).val → s' y = w x)
  ∧ (∀ y : S4096x1024.Idx, ((y 0).val < o ∨ o + 1024 ≤ (y 0).val) → s' y = s y)

/-- What the second phase leaves in the output's staging buffer: its one store, of the whole block, over the four
    values the body read. -/
def outB (x0 : Vec F S1024x1024 .f32) (s0 : Vec F S1024x4096 .bf16) (s1 : Vec F S4096x1024 .bf16) (x3 : Vec F S1x1024 .f32) :
    Vec F S1000x1024 .f32 :=
  View.canon [⟨rO, k0_pay3 (View.ld x0 rW) (View.ld s0 rS0) (View.ld s1 rS1) (View.ld x3 rB)⟩]

/-- The one store of the second phase covers the output block. -/
theorem coverO (p0 : Vec F S1000x1024 .f32) (y : S1000x1024.Idx) :
    ∃ pc ∈ ([⟨rO, p0⟩] : List (View.Piece (Elt F) S1000x1024 .f32)), y ∈ pc.1.set :=
  View.cover_of_tiled [⟨rO, p0⟩] S1000x1024.size (by rfl) y

/-! ## The first phase -/

set_option maxHeartbeats 1000000 in
/-- THE FIRST PHASE'S RUN (first branch taken, second not), the chunk's offset `o` given in closed form for both
    stores: the inputs' buffers and the output's are handed back as found; the first scratch has its columns
    `[o, o + 1024)` overwritten by the reformatted first-weight chunk, the second its rows `[o, o + 1024)` by the
    reformatted second-weight chunk. -/
theorem runCast (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1000x1024 .f32) (harg5 : arg5.IsWhole) (arg6 : Memref sig .tc .vmem S1024x4096 .bf16) (harg6 : arg6.IsWhole) (arg7 : Memref sig .tc .vmem S4096x1024 .bf16) (harg7 : arg7.IsWhole)
    (hc0 : k0_cond1 i = 1#1) (hc1 : ¬k0_cond2 i = 1#1) (o : ℕ) (ho1 : k0_off1 i = ![0, o]) (ho2 : k0_off2 i = ![o, 0])
    (x0 : Vec F S1024x1024 .f32) (x1 : Vec F S1024x1024 .f32) (x2 : Vec F S1024x1024 .f32) (x3 : Vec F S1x1024 .f32)
    (d5 : Vec F S1000x1024 .f32) (s0 : Vec F S1024x4096 .bf16) (s1 : Vec F S4096x1024 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare d5 ∗ owns (c : Thread nD τ) arg6 fullShare s0 ∗ owns (c : Thread nD τ) arg7 fullShare s1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare d5
                ∗ (∃ s0', ⌜ColsUpd o s0 s0' (k0_pay1 (View.ld x1 rW))⌝ ∗ owns (c : Thread nD τ) arg6 fullShare s0')
                ∗ (∃ s1', ⌜RowsUpd o s1 s1' (k0_pay2 (View.ld x2 rW))⌝ ∗ owns (c : Thread nD τ) arg7 fullShare s1')) -∗ K ⟨⟩))
          ⊢ wp frame (wpE (defs₀ (F := F)) Variants.none c none) E (cc0__fused_mlp_kernel i arg1 harg1 arg2 harg2 arg3 harg3 arg4 harg4 arg5 harg5 arg6 harg6 arg7 harg7) K := by
    intro E K
    simp only [cc0__fused_mlp_kernel_eq_skeleton]; unfold cc0__fused_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    subst hf0 hf1 hf2 hf3 hf4 hfs0 hfs1
    sl_exec (disch := first | exact hc0 | exact hc1)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [HS0]
    · iexists _; isplitr
      swap
      · iexists _; isplitr
        swap; · iexact HS0
        ipureintro; rfl
      ipureintro
      refine ⟨fun y x h0 h1 => ?_, fun y hy => ?_⟩
      · exact View.read_writes_cons_unit_of_mem arg6.view fs0 _ _ [] y x ho1 (fun a => by
          match a with
          | ⟨0, _⟩ => show (y 0).val = 0 + (x 0).val; omega
          | ⟨1, _⟩ => exact h1)
      · exact View.read_writes_cons_unit_of_not_mem arg6.view fs0 _ _ [] y ho1 1 hy
    iexists _; isplitr
    swap
    · iexists _; isplitr
      swap; · iexact HS1
      ipureintro; rfl
    ipureintro
    refine ⟨fun y x h0 h1 => ?_, fun y hy => ?_⟩
    · exact View.read_writes_cons_unit_of_mem arg7.view fs1 _ _ [] y x ho2 (fun a => by
        match a with
        | ⟨0, _⟩ => exact h0
        | ⟨1, _⟩ => show (y 1).val = 0 + (x 1).val; omega)
    · exact View.read_writes_cons_unit_of_not_mem arg7.view fs1 _ _ [] y ho2 0 hy

/-! ## The second phase -/

set_option maxHeartbeats 1000000 in
/-- THE SECOND PHASE'S RUN (first branch not taken, second taken): the inputs' buffers and both scratch buffers are
    handed back as found, and the output's staging buffer, whatever it held, holds the payload of the input block,
    the two whole scratch buffers and the bias row. -/
theorem runCompute (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1000x1024 .f32) (harg5 : arg5.IsWhole) (arg6 : Memref sig .tc .vmem S1024x4096 .bf16) (harg6 : arg6.IsWhole) (arg7 : Memref sig .tc .vmem S4096x1024 .bf16) (harg7 : arg7.IsWhole)
    (hc0 : ¬k0_cond1 i = 1#1) (hc1 : k0_cond2 i = 1#1)
    (x0 : Vec F S1024x1024 .f32) (x1 : Vec F S1024x1024 .f32) (x2 : Vec F S1024x1024 .f32) (x3 : Vec F S1x1024 .f32)
    (s0 : Vec F S1024x4096 .bf16) (s1 : Vec F S4096x1024 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare s0 ∗ owns (c : Thread nD τ) arg7 fullShare s1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outB x0 s0 s1 x3)
                ∗ owns (c : Thread nD τ) arg6 fullShare s0 ∗ owns (c : Thread nD τ) arg7 fullShare s1) -∗ K ⟨⟩))
          ⊢ wp frame (wpE (defs₀ (F := F)) Variants.none c none) E (cc0__fused_mlp_kernel i arg1 harg1 arg2 harg2 arg3 harg3 arg4 harg4 arg5 harg5 arg6 harg6 arg7 harg7) K := by
    intro E K
    simp only [cc0__fused_mlp_kernel_eq_skeleton]; unfold cc0__fused_mlp_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    subst hf0 hf1 hf2 hf3 hfs0 hfs1
    sl_exec (disch := first | exact hc0 | exact hc1)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists _; isplitr
      swap; · iexact H4
      ipureintro
      exact View.read_writes_eq_canon _ _ _ (coverO _)
    isplitl [HS0]
    · iexists fs0; isplitr; · ipureintro; rfl
      iexact HS0
    iexists fs1; isplitr; · ipureintro; rfl
    iexact HS1

end Cert.Kernel.Body

end
-- ==== Proof.KWordData.lean ====
/-
  The proof data of the kernel's one pipeline, with BOTH scratch buffers tracked from point to point, the body
  obligation, and the run.

  The two scratch buffers start at unknown contents and are filled chunk by chunk over the first four grid
  points: after point `t < 4`, columns `[0, 1024 (t+1))` of the first scratch hold the reformatted first weight
  matrix, rows `[0, 1024 (t+1))` of the second the reformatted second weight matrix. So there are TARGET contents
  (`tgt0`, `tgt1`: entry by entry, the reformatted weight chunk that entry's column, resp. row, falls in), and the
  invariant before point `n` says each scratch AGREES with its target on its first `1024 n` columns, resp. rows
  (`Agree0`, `Agree1`): nothing at `n = 0`, the whole buffer from `n = 4` on. A first-phase point extends the
  agreement by one chunk; a second-phase point finds both scratch buffers AT their targets, leaves them there, and
  fills the output's staging buffer with the payload of its input block, the two targets and the bias row. The
  output window is idle and not written back during the first phase, and is handed back as found there.
-/
import proofs.«158633_g2000700481452298_pallasbulk_1136_19_alg».proof.Proof.KWordRuns
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule, decided over the eight points -/

/-- The first branch is taken at the first four points, -/
theorem hcond1 : ∀ t : Fin cfg0.N, k0_cond1 (grid0.coords t) = 1#1 ↔ t.val < 4 :=
  (by decide +kernel : ∀ t : Fin grid0.N, k0_cond1 (grid0.coords t) = 1#1 ↔ t.val < 4)
/-- the second at the last four. -/
theorem hcond2 : ∀ t : Fin cfg0.N, k0_cond2 (grid0.coords t) = 1#1 ↔ 4 ≤ t.val :=
  (by decide +kernel : ∀ t : Fin grid0.N, k0_cond2 (grid0.coords t) = 1#1 ↔ 4 ≤ t.val)
/-- At a first-phase point `t` the chunk stored into the first scratch starts at column `1024 t`, -/
theorem hoff1 : ∀ t : Fin cfg0.N, t.val < 4 → k0_off1 (grid0.coords t) = ![0, 1024 * t.val] :=
  (by decide +kernel : ∀ t : Fin grid0.N, t.val < 4 → k0_off1 (grid0.coords t) = ![0, 1024 * t.val])
/-- and the chunk stored into the second at row `1024 t`. -/
theorem hoff2 : ∀ t : Fin cfg0.N, t.val < 4 → k0_off2 (grid0.coords t) = ![1024 * t.val, 0] :=
  (by decide +kernel : ∀ t : Fin grid0.N, t.val < 4 → k0_off2 (grid0.coords t) = ![1024 * t.val, 0])
/-- The input windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- The output window is idle during the first phase, and not written back there; -/
theorem idle4 : ∀ t : Fin cfg0.N, t.val < 4 → cfg0.idle 4 (grid0.coords t) = true :=
  (by decide +kernel : ∀ t : Fin grid0.N, t.val < 4 → cfg0.idle 4 (grid0.coords t) = true)
theorem noflush4 : ∀ t : Fin cfg0.N, t.val < 4 → (cfg0.win 4).flush t = false :=
  (by decide +kernel : ∀ t : Fin grid0.N, t.val < 4 → win0_4.flush t = false)
/-- it is stored at every point of the second. -/
theorem live4 : ∀ t : Fin cfg0.N, 4 ≤ t.val → cfg0.idle 4 (grid0.coords t) = false :=
  (by decide +kernel : ∀ t : Fin grid0.N, 4 ≤ t.val → cfg0.idle 4 (grid0.coords t) = false)

/-! ## The buffers the body is called with -/

/-- Each window's current staging buffer at point `t`, and that it is a whole buffer. -/
abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1000x1024 .f32 := win0_4.stage (cfg0.slots t 4)
abbrev hs4 (t : Fin cfg0.N) : (ms4 t).IsWhole := hstage0_4 ((cfg0.slots t 4).cast nbuf0_4)
/-- The two scratch buffers, whole. -/
abbrev scM0 : Memref sig .tc .vmem S1024x4096 .bf16 := Memref.whole cc0_scratch0
abbrev scM1 : Memref sig .tc .vmem S4096x1024 .bf16 := Memref.whole cc0_scratch1

/-- What the launch hands the region besides the windows: the two scratch buffers at some contents and the generator
    register at some state. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## The scratch buffers' targets and the invariant -/

/-- The first scratch's target: entry `(r, k)` is entry `(r, k mod 1024)` of the reformatted first-weight chunk the
    pipeline stages at point `k / 1024`. -/
def tgt0 (c : Dev nD) : Vec F S1024x4096 .bf16 := fun j =>
  k0_pay1 (View.ld (iblk m c 1 ⟨(j 1).val / 1024, by have := idx2_lt1 j; have : cfg0.N = 8 := N_0; omega⟩ : Vec F S1024x1024 .f32) rW)
    (ix2 (n0 := 1024) (n1 := 1024) ⟨(j 0).val, idx2_lt0 j⟩ ⟨(j 1).val % 1024, Nat.mod_lt _ (by decide)⟩)

/-- The second scratch's target: entry `(k, r)` is entry `(k mod 1024, r)` of the reformatted second-weight chunk the
    pipeline stages at point `k / 1024`. -/
def tgt1 (c : Dev nD) : Vec F S4096x1024 .bf16 := fun j =>
  k0_pay2 (View.ld (iblk m c 2 ⟨(j 0).val / 1024, by have := idx2_lt0 j; have : cfg0.N = 8 := N_0; omega⟩ : Vec F S1024x1024 .f32) rW)
    (ix2 (n0 := 1024) (n1 := 1024) ⟨(j 0).val % 1024, Nat.mod_lt _ (by decide)⟩ ⟨(j 1).val, idx2_lt1 j⟩)

/-- `s` holds the first scratch's target on its first `1024 n` columns. -/
def Agree0 (c : Dev nD) (n : ℕ) (s : Vec F S1024x4096 .bf16) : Prop :=
  ∀ j : S1024x4096.Idx, (j 1).val < 1024 * n → s j = tgt0 m c j
/-- `s` holds the second scratch's target on its first `1024 n` rows. -/
def Agree1 (c : Dev nD) (n : ℕ) (s : Vec F S4096x1024 .bf16) : Prop :=
  ∀ j : S4096x1024.Idx, (j 0).val < 1024 * n → s j = tgt1 m c j

/-- A first-phase point extends the first scratch's agreement by the chunk it stores. -/
theorem agree0_step (c : Dev nD) (t : Fin cfg0.N) (ht : t.val < 4) (s s' : Vec F S1024x4096 .bf16)
    (hA : Agree0 m c t.val s) (hU : ColsUpd (1024 * t.val) s s' (k0_pay1 (View.ld (iblk m c 1 t : Vec F S1024x1024 .f32) rW))) :
    Agree0 m c (t.val + 1) s' := by
  intro j hj
  by_cases hlt : (j 1).val < 1024 * t.val
  · rw [hU.2 j (Or.inl hlt)]; exact hA j hlt
  · have e : (⟨(j 1).val / 1024, by have := idx2_lt1 j; have : cfg0.N = 8 := N_0; omega⟩ : Fin cfg0.N) = t :=
      Fin.ext (by show (j 1).val / 1024 = t.val; omega)
    unfold tgt0
    rw [e]
    exact hU.1 j _ rfl (by show (j 1).val = 1024 * t.val + (j 1).val % 1024; omega)

/-- And the second scratch's. -/
theorem agree1_step (c : Dev nD) (t : Fin cfg0.N) (ht : t.val < 4) (s s' : Vec F S4096x1024 .bf16)
    (hA : Agree1 m c t.val s) (hU : RowsUpd (1024 * t.val) s s' (k0_pay2 (View.ld (iblk m c 2 t : Vec F S1024x1024 .f32) rW))) :
    Agree1 m c (t.val + 1) s' := by
  intro j hj
  by_cases hlt : (j 0).val < 1024 * t.val
  · rw [hU.2 j (Or.inl hlt)]; exact hA j hlt
  · have e : (⟨(j 0).val / 1024, by have := idx2_lt0 j; have : cfg0.N = 8 := N_0; omega⟩ : Fin cfg0.N) = t :=
      Fin.ext (by show (j 0).val / 1024 = t.val; omega)
    unfold tgt1
    rw [e]
    exact hU.1 j _ (by show (j 0).val = 1024 * t.val + (j 0).val % 1024; omega) rfl

/-- From the fourth point on the agreement is the whole buffer: the scratch IS its target. -/
theorem agree0_full (c : Dev nD) (n : ℕ) (hn : 4 ≤ n) (s : Vec F S1024x4096 .bf16) (hA : Agree0 m c n s) : s = tgt0 m c :=
  funext fun j => hA j (by have := idx2_lt1 j; omega)
theorem agree1_full (c : Dev nD) (n : ℕ) (hn : 4 ≤ n) (s : Vec F S4096x1024 .bf16) (hA : Agree1 m c n s) : s = tgt1 m c :=
  funext fun j => hA j (by have := idx2_lt0 j; omega)

/-- THE INVARIANT before point `n`: each scratch buffer at contents agreeing with its target on the first `n` chunks,
    and the generator register at some state. -/
def Phi (c : Dev nD) (n : ℕ) : sProp 𝕄 :=
  iprop(iprop((∃ s0, ⌜Agree0 m c n s0⌝ ∗ owns (c : Thread nD τ) scM0 fullShare s0) ∗ (∃ s1, ⌜Agree1 m c n s1⌝ ∗ owns (c : Thread nD τ) scM1 fullShare s1)) ∗ (∃ r, prngReg c r))

/-! ## The proof data -/

/-- The proof data on core `c`: the arrays as the region finds them; after the body each input's buffer at its
    block, the output's at the second phase's payload over the scratch TARGETS; the invariant `Phi`; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outB (iblk m c 0 t) (tgt0 m c) (tgt1 m c) (iblk m c 3 t)
  Φ t := Phi m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = outB (iblk m c 0 t) (tgt0 m c) (tgt1 m c) (iblk m c 3 t) := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

end Cert.Kernel.Body

end
-- ==== Proof.KWordOblig.lean ====
/-
  The body obligation of the kernel's pipeline at every grid point, the invariant at the region's two ends, and
  from them the run of the whole program and its frame.

  At a first-phase point the invariant lends the body both scratch buffers, agreeing with their targets on the
  chunks already stored, and takes them back agreeing on one chunk more; the idle output buffer goes back as it
  came. At a second-phase point the agreement covers both buffers, so the scratch contents ARE the targets and the
  payload the body stores is the one the proof data names. Before the first point nothing is claimed of the scratch
  buffers, which is what the launch provides; after the last their contents are forgotten again.
-/
import proofs.«158633_g2000700481452298_pallasbulk_1136_19_alg».proof.Proof.KWordData

set_option maxRecDepth 16384

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4000000 in
/-- The body at any point. In the first phase the invariant hands it both scratch buffers agreeing with their targets
    on `t` chunks and takes them back agreeing on `t + 1`, the output's buffer going back as it came; in the second the
    agreement is the whole of both buffers, so the run's payload is the one the proof data names. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = Phi m c (t.val + 1) from rfl, Phi_castSucc m c t]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  unfold Phi
  by_cases h : t.val < 4
  · rw [Dat.leavesExact_idle (dats m 0 c) 4 t (idle4 t h) (noflush4 t h)]
    iintro ⟨⟨⟨⟨%s0, %hs0, HS0⟩, ⟨%s1, %hs1, HS1⟩⟩, Hg⟩, Ho, ⟨%d0, H0⟩, ⟨%d1, H1⟩, ⟨%d2, H2⟩, ⟨%d3, H3⟩, ⟨%d4, H4⟩⟩
    iapply (runCast c (grid0.coords t) _ _ _ _ _ _ _ _ _ _ _ _ _ _ ((hcond1 t).mpr h) (fun h' => absurd ((hcond2 t).mp h') (by omega))
      (1024 * t.val) (hoff1 t h) (hoff2 t h) (iblk m c 0 t) (iblk m c 1 t) (iblk m c 2 t) (iblk m c 3 t) ((dats m 0 c).before 4 t d4) s0 s1 Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, ⟨%s0', %hu0, HS0⟩, ⟨%s1', %hu1, HS1⟩⟩
    isplitl [HS0 HS1 Hg]
    · isplitl [HS0 HS1]
      · isplitl [HS0]
        · iexists s0'; isplitr; · ipureintro; exact agree0_step m c t h s0 s0' hs0 hu0
          iexact HS0
        iexists s1'; isplitr; · ipureintro; exact agree1_step m c t h s1 s1' hs1 hu1
        iexact HS1
      iexact Hg
    isplitl [Ho]; · iexact Ho
    isplitl [H0]; · iexact H0
    isplitl [H1]; · iexact H1
    isplitl [H2]; · iexact H2
    isplitl [H3]; · iexact H3
    iexists d4; iexact H4
  · have h4 : 4 ≤ t.val := Nat.le_of_not_lt h
    rw [show (dats m 0 c).leavesExact 4 t = owns (c : Thread nD τ) (ms4 t) fullShare ((dats m 0 c).after 4 t) from by
      unfold Dat.leavesExact; rw [live4 t h4], after4]
    iintro ⟨⟨⟨⟨%s0, %hs0, HS0⟩, ⟨%s1, %hs1, HS1⟩⟩, Hg⟩, Ho, ⟨%d0, H0⟩, ⟨%d1, H1⟩, ⟨%d2, H2⟩, ⟨%d3, H3⟩, ⟨%d4, H4⟩⟩
    obtain rfl := agree0_full m c t.val h4 s0 hs0
    obtain rfl := agree1_full m c t.val h4 s1 hs1
    iapply (runCompute c (grid0.coords t) _ _ _ _ _ _ _ _ _ _ _ _ _ _ (fun h' => h ((hcond1 t).mp h')) ((hcond2 t).mpr h4)
      (iblk m c 0 t) (iblk m c 1 t) (iblk m c 2 t) (iblk m c 3 t) (tgt0 m c) (tgt1 m c) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, H4, HS0, HS1⟩
    isplitl [HS0 HS1 Hg]
    · isplitl [HS0 HS1]
      · isplitl [HS0]
        · iexists (tgt0 m c); isplitr; · ipureintro; exact fun j _ => rfl
          iexact HS0
        iexists (tgt1 m c); isplitr; · ipureintro; exact fun j _ => rfl
        iexact HS1
      iexact Hg
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: no chunk is claimed yet. -/
theorem hin (c : Dev nD) : Pipeline.ΦA spec0 c ⊢ (dats m 0 c).Φ 0 := by
  rw [show (dats m 0 c).Φ 0 = Phi m c 0 from rfl, PhiA_eq]
  unfold Phi
  iintro ⟨⟨⟨%d0, H0⟩, ⟨%d1, H1⟩⟩, Hg⟩
  isplitl [H0 H1]
  · isplitl [H0]
    · iexists d0; isplitr; · ipureintro; exact fun j hj => absurd hj (by omega)
      iexact H0
    iexists d1; isplitr; · ipureintro; exact fun j hj => absurd hj (by omega)
    iexact H1
  iexact Hg

/-- After the last point the invariant gives the scratch buffers back, their contents forgotten. -/
theorem hout (c : Dev nD) : (dats m 0 c).Φ (Fin.last cfg0.N) ⊢ Pipeline.ΦA spec0 c := by
  rw [show (dats m 0 c).Φ (Fin.last cfg0.N) = Phi m c cfg0.N from rfl, PhiA_eq]
  unfold Phi
  iintro ⟨⟨⟨%s0, -, H0⟩, ⟨%s1, -, H1⟩⟩, Hg⟩
  isplitl [H0 H1]
  · isplitl [H0]
    · iexists s0; iexact H0
    iexists s1; iexact H1
  iexact Hg

/-! ## The run and the frame -/

set_option backward.isDefEq.respectTransparency.types false in
/-- Every weakly fair execution of the program terminates, nothing faulting, with every array of the pipeline at what
    the proof data's write-backs leave and every other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.KBodyRuns.lean ====
/-
  The kernel body's two runs, on whole staging buffers and whole scratch buffers at NAMED contents.

  The grid has eight points. At a point of the first phase (the first four points) the body reads one
  1024 x 1024 chunk of each weight matrix from its staging buffer, changes its format, and overwrites with it one
  chunk of a scratch buffer: columns `[o, o + 1024)` of the first scratch (1024 x 4096), rows `[o, o + 1024)` of
  the second (4096 x 1024), `o` being 1024 times the point; everything else in the two scratch buffers, and the
  output's staging buffer, is left as it was found. At a point of the second phase (the last four) the body reads a
  block of input rows, BOTH WHOLE scratch buffers and the bias row, and fills the output's staging buffer with one
  payload of those four; the scratch buffers are left as found.
  Each run is the body's weakest precondition under the point's two branch conditions, found by symbolic execution
  of the body's skeleton; what a chunk store leaves in a scratch buffer is stated as a relation between the contents
  before and after (`ColsUpd`, `RowsUpd`: the chunk holds the payload, every other entry is unchanged).
-/
import proofs.«158633_g2000700481452298_pallasbulk_1136_19_alg».proof.Proof.Gen.KernelIdeal.Frame
import proofs.«158633_g2000700481452298_pallasbulk_1136_19_alg».proof.Proof.Gen.KernelIdeal.Skeleton
import Idealize.ShloMosaic.Lib.WritesUnit

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes whole -/

/-- A whole 1024 x 1024 staging buffer (an input block, a weight chunk). -/
abbrev rW : Rect S1024x1024 := Rect.unit (s := S1024x1024) ![0, 0] S1024x1024.size inb_S1024x1024_S1024x1024_0_0
/-- The whole bias row. -/
abbrev rB : Rect S1x1024 := Rect.unit (s := S1x1024) ![0, 0] S1x1024.size inb_S1x1024_S1x1024_0_0
/-- The whole first scratch buffer. -/
abbrev rS0 : Rect S1024x4096 := Rect.unit (s := S1024x4096) ![0, 0] S1024x4096.size inb_S1024x4096_S1024x4096_0_0
/-- The whole second scratch buffer. -/
abbrev rS1 : Rect S4096x1024 := Rect.unit (s := S4096x1024) ![0, 0] S4096x1024.size inb_S4096x1024_S4096x1024_0_0
/-- The whole output block. -/
abbrev rO : Rect S1000x1024 := Rect.unit (s := S1000x1024) ![0, 0] S1000x1024.size inb_S1000x1024_S1000x1024_0_0

/-! ## What a chunk store leaves -/

/-- `s'` is `s` with columns `[o, o + 1024)` overwritten by the 1024 x 1024 array `w`: entry `(r, o + q)` of `s'` is
    entry `(r, q)` of `w`, and an entry whose column is outside the chunk is unchanged. -/
def ColsUpd (o : ℕ) (s s' : Vec F S1024x4096 .bf16) (w : Vec F S1024x1024 .bf16) : Prop :=
  (∀ (y : S1024x4096.Idx) (x : S1024x1024.Idx), (y 0).val = (x 0).val → (y 1).val = o + (x 1).val → s' y = w x)
  ∧ (∀ y : S1024x4096.Idx, ((y 1).val < o ∨ o + 1024 ≤ (y 1).val) → s' y = s y)

/-- `s'` is `s` with rows `[o, o + 1024)` overwritten by the 1024 x 1024 array `w`: entry `(o + q, r)` of `s'` is
    entry `(q, r)` of `w`, and an entry whose row is outside the chunk is unchanged. -/
def RowsUpd (o : ℕ) (s s' : Vec F S4096x1024 .bf16) (w : Vec F S1024x1024 .bf16) : Prop :=
  (∀ (y : S4096x1024.Idx) (x : S1024x1024.Idx), (y 0).val = o + (x 0).val → (y 1).val = (x 1).val → s' y = w x)
  ∧ (∀ y : S4096x1024.Idx, ((y 0).val < o ∨ o + 1024 ≤ (y 0).val) → s' y = s y)

/-- What the second phase leaves in the output's staging buffer: its one store, of the whole block, over the four
    values the body read. -/
def outB (x0 : Vec F S1024x1024 .f32) (s0 : Vec F S1024x4096 .bf16) (s1 : Vec F S4096x1024 .bf16) (x3 : Vec F S1x1024 .f32) :
    Vec F S1000x1024 .f32 :=
  View.canon [⟨rO, k0_pay3 (View.ld x0 rW) (View.ld s0 rS0) (View.ld s1 rS1) (View.ld x3 rB)⟩]

/-- The one store of the second phase covers the output block. -/
theorem coverO (p0 : Vec F S1000x1024 .f32) (y : S1000x1024.Idx) :
    ∃ pc ∈ ([⟨rO, p0⟩] : List (View.Piece (Elt F) S1000x1024 .f32)), y ∈ pc.1.set :=
  View.cover_of_tiled [⟨rO, p0⟩] S1000x1024.size (by rfl) y

/-! ## The first phase -/

set_option maxHeartbeats 1000000 in
/-- THE FIRST PHASE'S RUN (first branch taken, second not), the chunk's offset `o` given in closed form for both
    stores: the inputs' buffers and the output's are handed back as found; the first scratch has its columns
    `[o, o + 1024)` overwritten by the reformatted first-weight chunk, the second its rows `[o, o + 1024)` by the
    reformatted second-weight chunk. -/
theorem runCast (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1000x1024 .f32) (harg5 : arg5.IsWhole) (arg6 : Memref sig .tc .vmem S1024x4096 .bf16) (harg6 : arg6.IsWhole) (arg7 : Memref sig .tc .vmem S4096x1024 .bf16) (harg7 : arg7.IsWhole)
    (hc0 : k0_cond1 i = 1#1) (hc1 : ¬k0_cond2 i = 1#1) (o : ℕ) (ho1 : k0_off1 i = ![0, o]) (ho2 : k0_off2 i = ![o, 0])
    (x0 : Vec F S1024x1024 .f32) (x1 : Vec F S1024x1024 .f32) (x2 : Vec F S1024x1024 .f32) (x3 : Vec F S1x1024 .f32)
    (d5 : Vec F S1000x1024 .f32) (s0 : Vec F S1024x4096 .bf16) (s1 : Vec F S4096x1024 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare d5 ∗ owns (c : Thread nD τ) arg6 fullShare s0 ∗ owns (c : Thread nD τ) arg7 fullShare s1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare d5
                ∗ (∃ s0', ⌜ColsUpd o s0 s0' (k0_pay1 (View.ld x1 rW))⌝ ∗ owns (c : Thread nD τ) arg6 fullShare s0')
                ∗ (∃ s1', ⌜RowsUpd o s1 s1' (k0_pay2 (View.ld x2 rW))⌝ ∗ owns (c : Thread nD τ) arg7 fullShare s1')) -∗ K ⟨⟩))
          ⊢ wp frame (wpE (defs₀ (F := F)) Variants.none c none) E (cc0__fused_mlp_kernel i arg1 harg1 arg2 harg2 arg3 harg3 arg4 harg4 arg5 harg5 arg6 harg6 arg7 harg7) K := by
    intro E K
    simp only [cc0__fused_mlp_kernel_eq_skeleton]; unfold cc0__fused_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    subst hf0 hf1 hf2 hf3 hf4 hfs0 hfs1
    sl_exec (disch := first | exact hc0 | exact hc1)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [HS0]
    · iexists _; isplitr
      swap
      · iexists _; isplitr
        swap; · iexact HS0
        ipureintro; rfl
      ipureintro
      refine ⟨fun y x h0 h1 => ?_, fun y hy => ?_⟩
      · exact View.read_writes_cons_unit_of_mem arg6.view fs0 _ _ [] y x ho1 (fun a => by
          match a with
          | ⟨0, _⟩ => show (y 0).val = 0 + (x 0).val; omega
          | ⟨1, _⟩ => exact h1)
      · exact View.read_writes_cons_unit_of_not_mem arg6.view fs0 _ _ [] y ho1 1 hy
    iexists _; isplitr
    swap
    · iexists _; isplitr
      swap; · iexact HS1
      ipureintro; rfl
    ipureintro
    refine ⟨fun y x h0 h1 => ?_, fun y hy => ?_⟩
    · exact View.read_writes_cons_unit_of_mem arg7.view fs1 _ _ [] y x ho2 (fun a => by
        match a with
        | ⟨0, _⟩ => exact h0
        | ⟨1, _⟩ => show (y 1).val = 0 + (x 1).val; omega)
    · exact View.read_writes_cons_unit_of_not_mem arg7.view fs1 _ _ [] y ho2 0 hy

/-! ## The second phase -/

set_option maxHeartbeats 1000000 in
/-- THE SECOND PHASE'S RUN (first branch not taken, second taken): the inputs' buffers and both scratch buffers are
    handed back as found, and the output's staging buffer, whatever it held, holds the payload of the input block,
    the two whole scratch buffers and the bias row. -/
theorem runCompute (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1000x1024 .f32) (harg5 : arg5.IsWhole) (arg6 : Memref sig .tc .vmem S1024x4096 .bf16) (harg6 : arg6.IsWhole) (arg7 : Memref sig .tc .vmem S4096x1024 .bf16) (harg7 : arg7.IsWhole)
    (hc0 : ¬k0_cond1 i = 1#1) (hc1 : k0_cond2 i = 1#1)
    (x0 : Vec F S1024x1024 .f32) (x1 : Vec F S1024x1024 .f32) (x2 : Vec F S1024x1024 .f32) (x3 : Vec F S1x1024 .f32)
    (s0 : Vec F S1024x4096 .bf16) (s1 : Vec F S4096x1024 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare s0 ∗ owns (c : Thread nD τ) arg7 fullShare s1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outB x0 s0 s1 x3)
                ∗ owns (c : Thread nD τ) arg6 fullShare s0 ∗ owns (c : Thread nD τ) arg7 fullShare s1) -∗ K ⟨⟩))
          ⊢ wp frame (wpE (defs₀ (F := F)) Variants.none c none) E (cc0__fused_mlp_kernel i arg1 harg1 arg2 harg2 arg3 harg3 arg4 harg4 arg5 harg5 arg6 harg6 arg7 harg7) K := by
    intro E K
    simp only [cc0__fused_mlp_kernel_eq_skeleton]; unfold cc0__fused_mlp_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    subst hf0 hf1 hf2 hf3 hfs0 hfs1
    sl_exec (disch := first | exact hc0 | exact hc1)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists _; isplitr
      swap; · iexact H4
      ipureintro
      exact View.read_writes_eq_canon _ _ _ (coverO _)
    isplitl [HS0]
    · iexists fs0; isplitr; · ipureintro; rfl
      iexact HS0
    iexists fs1; isplitr; · ipureintro; rfl
    iexact HS1

end Cert.KernelIdeal.Body

end
-- ==== Proof.KBodyData.lean ====
/-
  The proof data of the kernel's one pipeline, with BOTH scratch buffers tracked from point to point, the body
  obligation, and the run.

  The two scratch buffers start at unknown contents and are filled chunk by chunk over the first four grid
  points: after point `t < 4`, columns `[0, 1024 (t+1))` of the first scratch hold the reformatted first weight
  matrix, rows `[0, 1024 (t+1))` of the second the reformatted second weight matrix. So there are TARGET contents
  (`tgt0`, `tgt1`: entry by entry, the reformatted weight chunk that entry's column, resp. row, falls in), and the
  invariant before point `n` says each scratch AGREES with its target on its first `1024 n` columns, resp. rows
  (`Agree0`, `Agree1`): nothing at `n = 0`, the whole buffer from `n = 4` on. A first-phase point extends the
  agreement by one chunk; a second-phase point finds both scratch buffers AT their targets, leaves them there, and
  fills the output's staging buffer with the payload of its input block, the two targets and the bias row. The
  output window is idle and not written back during the first phase, and is handed back as found there.
-/
import proofs.«158633_g2000700481452298_pallasbulk_1136_19_alg».proof.Proof.KBodyRuns
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule, decided over the eight points -/

/-- The first branch is taken at the first four points, -/
theorem hcond1 : ∀ t : Fin cfg0.N, k0_cond1 (grid0.coords t) = 1#1 ↔ t.val < 4 :=
  (by decide +kernel : ∀ t : Fin grid0.N, k0_cond1 (grid0.coords t) = 1#1 ↔ t.val < 4)
/-- the second at the last four. -/
theorem hcond2 : ∀ t : Fin cfg0.N, k0_cond2 (grid0.coords t) = 1#1 ↔ 4 ≤ t.val :=
  (by decide +kernel : ∀ t : Fin grid0.N, k0_cond2 (grid0.coords t) = 1#1 ↔ 4 ≤ t.val)
/-- At a first-phase point `t` the chunk stored into the first scratch starts at column `1024 t`, -/
theorem hoff1 : ∀ t : Fin cfg0.N, t.val < 4 → k0_off1 (grid0.coords t) = ![0, 1024 * t.val] :=
  (by decide +kernel : ∀ t : Fin grid0.N, t.val < 4 → k0_off1 (grid0.coords t) = ![0, 1024 * t.val])
/-- and the chunk stored into the second at row `1024 t`. -/
theorem hoff2 : ∀ t : Fin cfg0.N, t.val < 4 → k0_off2 (grid0.coords t) = ![1024 * t.val, 0] :=
  (by decide +kernel : ∀ t : Fin grid0.N, t.val < 4 → k0_off2 (grid0.coords t) = ![1024 * t.val, 0])
/-- The input windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- The output window is idle during the first phase, and not written back there; -/
theorem idle4 : ∀ t : Fin cfg0.N, t.val < 4 → cfg0.idle 4 (grid0.coords t) = true :=
  (by decide +kernel : ∀ t : Fin grid0.N, t.val < 4 → cfg0.idle 4 (grid0.coords t) = true)
theorem noflush4 : ∀ t : Fin cfg0.N, t.val < 4 → (cfg0.win 4).flush t = false :=
  (by decide +kernel : ∀ t : Fin grid0.N, t.val < 4 → win0_4.flush t = false)
/-- it is stored at every point of the second. -/
theorem live4 : ∀ t : Fin cfg0.N, 4 ≤ t.val → cfg0.idle 4 (grid0.coords t) = false :=
  (by decide +kernel : ∀ t : Fin grid0.N, 4 ≤ t.val → cfg0.idle 4 (grid0.coords t) = false)

/-! ## The buffers the body is called with -/

/-- Each window's current staging buffer at point `t`, and that it is a whole buffer. -/
abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1000x1024 .f32 := win0_4.stage (cfg0.slots t 4)
abbrev hs4 (t : Fin cfg0.N) : (ms4 t).IsWhole := hstage0_4 ((cfg0.slots t 4).cast nbuf0_4)
/-- The two scratch buffers, whole. -/
abbrev scM0 : Memref sig .tc .vmem S1024x4096 .bf16 := Memref.whole cc0_scratch0
abbrev scM1 : Memref sig .tc .vmem S4096x1024 .bf16 := Memref.whole cc0_scratch1

/-- What the launch hands the region besides the windows: the two scratch buffers at some contents and the generator
    register at some state. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## The scratch buffers' targets and the invariant -/

/-- The first scratch's target: entry `(r, k)` is entry `(r, k mod 1024)` of the reformatted first-weight chunk the
    pipeline stages at point `k / 1024`. -/
def tgt0 (c : Dev nD) : Vec F S1024x4096 .bf16 := fun j =>
  k0_pay1 (View.ld (iblk m c 1 ⟨(j 1).val / 1024, by have := idx2_lt1 j; have : cfg0.N = 8 := N_0; omega⟩ : Vec F S1024x1024 .f32) rW)
    (ix2 (n0 := 1024) (n1 := 1024) ⟨(j 0).val, idx2_lt0 j⟩ ⟨(j 1).val % 1024, Nat.mod_lt _ (by decide)⟩)

/-- The second scratch's target: entry `(k, r)` is entry `(k mod 1024, r)` of the reformatted second-weight chunk the
    pipeline stages at point `k / 1024`. -/
def tgt1 (c : Dev nD) : Vec F S4096x1024 .bf16 := fun j =>
  k0_pay2 (View.ld (iblk m c 2 ⟨(j 0).val / 1024, by have := idx2_lt0 j; have : cfg0.N = 8 := N_0; omega⟩ : Vec F S1024x1024 .f32) rW)
    (ix2 (n0 := 1024) (n1 := 1024) ⟨(j 0).val % 1024, Nat.mod_lt _ (by decide)⟩ ⟨(j 1).val, idx2_lt1 j⟩)

/-- `s` holds the first scratch's target on its first `1024 n` columns. -/
def Agree0 (c : Dev nD) (n : ℕ) (s : Vec F S1024x4096 .bf16) : Prop :=
  ∀ j : S1024x4096.Idx, (j 1).val < 1024 * n → s j = tgt0 m c j
/-- `s` holds the second scratch's target on its first `1024 n` rows. -/
def Agree1 (c : Dev nD) (n : ℕ) (s : Vec F S4096x1024 .bf16) : Prop :=
  ∀ j : S4096x1024.Idx, (j 0).val < 1024 * n → s j = tgt1 m c j

/-- A first-phase point extends the first scratch's agreement by the chunk it stores. -/
theorem agree0_step (c : Dev nD) (t : Fin cfg0.N) (ht : t.val < 4) (s s' : Vec F S1024x4096 .bf16)
    (hA : Agree0 m c t.val s) (hU : ColsUpd (1024 * t.val) s s' (k0_pay1 (View.ld (iblk m c 1 t : Vec F S1024x1024 .f32) rW))) :
    Agree0 m c (t.val + 1) s' := by
  intro j hj
  by_cases hlt : (j 1).val < 1024 * t.val
  · rw [hU.2 j (Or.inl hlt)]; exact hA j hlt
  · have e : (⟨(j 1).val / 1024, by have := idx2_lt1 j; have : cfg0.N = 8 := N_0; omega⟩ : Fin cfg0.N) = t :=
      Fin.ext (by show (j 1).val / 1024 = t.val; omega)
    unfold tgt0
    rw [e]
    exact hU.1 j _ rfl (by show (j 1).val = 1024 * t.val + (j 1).val % 1024; omega)

/-- And the second scratch's. -/
theorem agree1_step (c : Dev nD) (t : Fin cfg0.N) (ht : t.val < 4) (s s' : Vec F S4096x1024 .bf16)
    (hA : Agree1 m c t.val s) (hU : RowsUpd (1024 * t.val) s s' (k0_pay2 (View.ld (iblk m c 2 t : Vec F S1024x1024 .f32) rW))) :
    Agree1 m c (t.val + 1) s' := by
  intro j hj
  by_cases hlt : (j 0).val < 1024 * t.val
  · rw [hU.2 j (Or.inl hlt)]; exact hA j hlt
  · have e : (⟨(j 0).val / 1024, by have := idx2_lt0 j; have : cfg0.N = 8 := N_0; omega⟩ : Fin cfg0.N) = t :=
      Fin.ext (by show (j 0).val / 1024 = t.val; omega)
    unfold tgt1
    rw [e]
    exact hU.1 j _ (by show (j 0).val = 1024 * t.val + (j 0).val % 1024; omega) rfl

/-- From the fourth point on the agreement is the whole buffer: the scratch IS its target. -/
theorem agree0_full (c : Dev nD) (n : ℕ) (hn : 4 ≤ n) (s : Vec F S1024x4096 .bf16) (hA : Agree0 m c n s) : s = tgt0 m c :=
  funext fun j => hA j (by have := idx2_lt1 j; omega)
theorem agree1_full (c : Dev nD) (n : ℕ) (hn : 4 ≤ n) (s : Vec F S4096x1024 .bf16) (hA : Agree1 m c n s) : s = tgt1 m c :=
  funext fun j => hA j (by have := idx2_lt0 j; omega)

/-- THE INVARIANT before point `n`: each scratch buffer at contents agreeing with its target on the first `n` chunks,
    and the generator register at some state. -/
def Phi (c : Dev nD) (n : ℕ) : sProp 𝕄 :=
  iprop(iprop((∃ s0, ⌜Agree0 m c n s0⌝ ∗ owns (c : Thread nD τ) scM0 fullShare s0) ∗ (∃ s1, ⌜Agree1 m c n s1⌝ ∗ owns (c : Thread nD τ) scM1 fullShare s1)) ∗ (∃ r, prngReg c r))

/-! ## The proof data -/

/-- The proof data on core `c`: the arrays as the region finds them; after the body each input's buffer at its
    block, the output's at the second phase's payload over the scratch TARGETS; the invariant `Phi`; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outB (iblk m c 0 t) (tgt0 m c) (tgt1 m c) (iblk m c 3 t)
  Φ t := Phi m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = outB (iblk m c 0 t) (tgt0 m c) (tgt1 m c) (iblk m c 3 t) := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

end Cert.KernelIdeal.Body

end
-- ==== Proof.KBodyOblig.lean ====
/-
  The body obligation of the kernel's pipeline at every grid point, the invariant at the region's two ends, and
  from them the run of the whole program and its frame.

  At a first-phase point the invariant lends the body both scratch buffers, agreeing with their targets on the
  chunks already stored, and takes them back agreeing on one chunk more; the idle output buffer goes back as it
  came. At a second-phase point the agreement covers both buffers, so the scratch contents ARE the targets and the
  payload the body stores is the one the proof data names. Before the first point nothing is claimed of the scratch
  buffers, which is what the launch provides; after the last their contents are forgotten again.
-/
import proofs.«158633_g2000700481452298_pallasbulk_1136_19_alg».proof.Proof.KBodyData

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4000000 in
/-- The body at any point. In the first phase the invariant hands it both scratch buffers agreeing with their targets
    on `t` chunks and takes them back agreeing on `t + 1`, the output's buffer going back as it came; in the second the
    agreement is the whole of both buffers, so the run's payload is the one the proof data names. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = Phi m c (t.val + 1) from rfl, Phi_castSucc m c t]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  unfold Phi
  by_cases h : t.val < 4
  · rw [Dat.leavesExact_idle (dats m 0 c) 4 t (idle4 t h) (noflush4 t h)]
    iintro ⟨⟨⟨⟨%s0, %hs0, HS0⟩, ⟨%s1, %hs1, HS1⟩⟩, Hg⟩, Ho, ⟨%d0, H0⟩, ⟨%d1, H1⟩, ⟨%d2, H2⟩, ⟨%d3, H3⟩, ⟨%d4, H4⟩⟩
    iapply (runCast c (grid0.coords t) _ _ _ _ _ _ _ _ _ _ _ _ _ _ ((hcond1 t).mpr h) (fun h' => absurd ((hcond2 t).mp h') (by omega))
      (1024 * t.val) (hoff1 t h) (hoff2 t h) (iblk m c 0 t) (iblk m c 1 t) (iblk m c 2 t) (iblk m c 3 t) ((dats m 0 c).before 4 t d4) s0 s1 Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, ⟨%s0', %hu0, HS0⟩, ⟨%s1', %hu1, HS1⟩⟩
    isplitl [HS0 HS1 Hg]
    · isplitl [HS0 HS1]
      · isplitl [HS0]
        · iexists s0'; isplitr; · ipureintro; exact agree0_step m c t h s0 s0' hs0 hu0
          iexact HS0
        iexists s1'; isplitr; · ipureintro; exact agree1_step m c t h s1 s1' hs1 hu1
        iexact HS1
      iexact Hg
    isplitl [Ho]; · iexact Ho
    isplitl [H0]; · iexact H0
    isplitl [H1]; · iexact H1
    isplitl [H2]; · iexact H2
    isplitl [H3]; · iexact H3
    iexists d4; iexact H4
  · have h4 : 4 ≤ t.val := Nat.le_of_not_lt h
    rw [show (dats m 0 c).leavesExact 4 t = owns (c : Thread nD τ) (ms4 t) fullShare ((dats m 0 c).after 4 t) from by
      unfold Dat.leavesExact; rw [live4 t h4], after4]
    iintro ⟨⟨⟨⟨%s0, %hs0, HS0⟩, ⟨%s1, %hs1, HS1⟩⟩, Hg⟩, Ho, ⟨%d0, H0⟩, ⟨%d1, H1⟩, ⟨%d2, H2⟩, ⟨%d3, H3⟩, ⟨%d4, H4⟩⟩
    obtain rfl := agree0_full m c t.val h4 s0 hs0
    obtain rfl := agree1_full m c t.val h4 s1 hs1
    iapply (runCompute c (grid0.coords t) _ _ _ _ _ _ _ _ _ _ _ _ _ _ (fun h' => h ((hcond1 t).mp h')) ((hcond2 t).mpr h4)
      (iblk m c 0 t) (iblk m c 1 t) (iblk m c 2 t) (iblk m c 3 t) (tgt0 m c) (tgt1 m c) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, H4, HS0, HS1⟩
    isplitl [HS0 HS1 Hg]
    · isplitl [HS0 HS1]
      · isplitl [HS0]
        · iexists (tgt0 m c); isplitr; · ipureintro; exact fun j _ => rfl
          iexact HS0
        iexists (tgt1 m c); isplitr; · ipureintro; exact fun j _ => rfl
        iexact HS1
      iexact Hg
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: no chunk is claimed yet. -/
theorem hin (c : Dev nD) : Pipeline.ΦA spec0 c ⊢ (dats m 0 c).Φ 0 := by
  rw [show (dats m 0 c).Φ 0 = Phi m c 0 from rfl, PhiA_eq]
  unfold Phi
  iintro ⟨⟨⟨%d0, H0⟩, ⟨%d1, H1⟩⟩, Hg⟩
  isplitl [H0 H1]
  · isplitl [H0]
    · iexists d0; isplitr; · ipureintro; exact fun j hj => absurd hj (by omega)
      iexact H0
    iexists d1; isplitr; · ipureintro; exact fun j hj => absurd hj (by omega)
    iexact H1
  iexact Hg

/-- After the last point the invariant gives the scratch buffers back, their contents forgotten. -/
theorem hout (c : Dev nD) : (dats m 0 c).Φ (Fin.last cfg0.N) ⊢ Pipeline.ΦA spec0 c := by
  rw [show (dats m 0 c).Φ (Fin.last cfg0.N) = Phi m c cfg0.N from rfl, PhiA_eq]
  unfold Phi
  iintro ⟨⟨⟨%s0, -, H0⟩, ⟨%s1, -, H1⟩⟩, Hg⟩
  isplitl [H0 H1]
  · isplitl [H0]
    · iexists s0; iexact H0
    iexists s1; iexact H1
  iexact Hg

/-! ## The run and the frame -/

set_option backward.isDefEq.respectTransparency.types false in
/-- Every weakly fair execution of the program terminates, nothing faulting, with every array of the pipeline at what
    the proof data's write-backs leave and every other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.Spec.lean ====
/-
  The function both programs compute, index by index, over the extended reals.

  A two-layer perceptron head on a batch of 4096 rows: the hidden layer is the rectified product of the input
  row with the first weight matrix, `hidden r h = max (∑ d, x[r,d] · W1[d,h]) 0`; the output is the product of the
  hidden row with the second weight matrix plus the bias row, `logit r c = (∑ h, hidden r h · W2[h,c]) + b[0,c]`,
  of which the first 1000 of the 1024 columns are kept. The zero the hidden layer is rectified against is kept as
  the float word both programs print, so that neither side ever evaluates it.
-/
import Idealize.ShloMosaic.PureOps.Ideal
import Idealize.ShloMosaic.Lib.ValueIdx

noncomputable section

namespace Cert.Spec

open Idealize.ShloMosaic Idealize.ShloMosaic.ValueIdx

/-- The hidden unit `h` of batch row `r`: the rectified inner product of the input row with column `h` of the
    first weight matrix. -/
def hidden (x : (⟨2, ![4096, 1024]⟩ : Shape).Idx → EReal) (w1 : (⟨2, ![1024, 4096]⟩ : Shape).Idx → EReal)
    (r : Fin 4096) (h : Fin 4096) : EReal :=
  max (∑ d : Fin 1024, x (ix2 r d) * w1 (ix2 d h)) (Ideal.ofBits .f32 0x00000000#32)

/-- The output unit `c` (of the 1024 padded columns) of batch row `r`: the inner product of the hidden row with
    column `c` of the second weight matrix, plus the bias of that column. -/
def logit (x : (⟨2, ![4096, 1024]⟩ : Shape).Idx → EReal) (w1 : (⟨2, ![1024, 4096]⟩ : Shape).Idx → EReal)
    (w2 : (⟨2, ![4096, 1024]⟩ : Shape).Idx → EReal) (b : (⟨2, ![1, 1024]⟩ : Shape).Idx → EReal)
    (r : Fin 4096) (c : Fin 1024) : EReal :=
  (∑ h : Fin 4096, hidden x w1 r h * w2 (ix2 h c)) + b (ix2 0 c)

/-- The result array: row `r`, column `c < 1000` holds output unit `c` of batch row `r`. -/
def mlp (x : (⟨2, ![4096, 1024]⟩ : Shape).Idx → EReal) (w1 : (⟨2, ![1024, 4096]⟩ : Shape).Idx → EReal)
    (w2 : (⟨2, ![4096, 1024]⟩ : Shape).Idx → EReal) (b : (⟨2, ![1, 1024]⟩ : Shape).Idx → EReal) :
    (⟨2, ![4096, 1000]⟩ : Shape).Idx → EReal :=
  fun i => logit x w1 w2 b (i 0) ⟨(i 1).val, Nat.lt_of_lt_of_le (idx2_lt1 i) (by decide)⟩

end Cert.Spec

end
-- ==== Proof.LibPlainDot.lean ====
/-
  A plain matrix product's contraction sum, read at an index.

  For the dimension numbers of an `[M, K] × [K, N] → [M, N]` product — the left operand contracted on its second
  axis, the right on its first, no batch axis — the contraction index has one coordinate, ranging over `Fin K`; at the
  result index `(r, c)` and contraction position `k` the left operand is read at `(r, k)` and the right at `(k, c)`.
  So a sum over the contraction index of any function of the two operand indices is the sum over `k : Fin K` of that
  function at `(r, k)` and `(k, c)`. Both a kernel's matrix unit product into a zero accumulator and the host's
  `dot_general` are such sums over the extended reals (of the products of the operands' entries), so this is the one
  re-indexing either needs.
-/
import Idealize.ShloMosaic.PureOps.Dims
import Idealize.ShloMosaic.Lib.ValueIdx

namespace Idealize.ShloMosaic.PlainDot

open Idealize.ShloMosaic Idealize.ShloMosaic.ValueIdx

/-- The left operand's index at result index `(r, c)` and contraction position `k` is `(r, k)`, the right operand's
    `(k, c)`, for any record with the plain product's dimension numbers; `e` is the bijection between the contraction
    index and `Fin K`. -/
theorem plain_idx {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (r : Fin M) (c : Fin N) (k : Fin K) :
    d.lhsIdx (ix2 r c) ((contrEquiv1 d K hr hs).symm k) = ix2 r k
      ∧ d.rhsIdx (ix2 r c) ((contrEquiv1 d K hr hs).symm k) = ix2 k c := by
  constructor
  · funext a
    refine Fin.ext ?_
    match a with
    | ⟨0, _⟩ =>
      show (d.lhsIdx (ix2 r c) ((contrEquiv1 d K hr hs).symm k) 0).val = r.val
      unfold DotDims.lhsIdx
      rw [dif_neg (by rw [h5]; exact List.not_mem_nil), dif_pos (by rw [h3]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 0 _ (by decide) (by simp [h5, h3])
    | ⟨1, _⟩ =>
      show (d.lhsIdx (ix2 r c) ((contrEquiv1 d K hr hs).symm k) 1).val = k.val
      rw [d.lhsIdx_val_of_single h1]
      exact contrEquiv1_symm_val d K hr hs k
  · funext a
    refine Fin.ext ?_
    match a with
    | ⟨0, _⟩ =>
      show (d.rhsIdx (ix2 r c) ((contrEquiv1 d K hr hs).symm k) 0).val = k.val
      rw [d.rhsIdx_val_of_single h2]
      exact contrEquiv1_symm_val d K hr hs k
    | ⟨1, _⟩ =>
      show (d.rhsIdx (ix2 r c) ((contrEquiv1 d K hr hs).symm k) 1).val = c.val
      unfold DotDims.rhsIdx
      rw [dif_neg (by rw [h6]; exact List.not_mem_nil), dif_pos (by rw [h4]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 1 _ (by decide) (by simp [h5, h3, h4])

/-- THE CONTRACTION SUM OF A PLAIN PRODUCT at `(r, c)`: the sum over `k : Fin K` at the operand indices `(r, k)` and
    `(k, c)`, in any commutative additive monoid. -/
theorem plain_sum {β : Type*} [AddCommMonoid β] {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K)
    (f : (⟨2, ![M, K]⟩ : Shape).Idx → (⟨2, ![K, N]⟩ : Shape).Idx → β) (r : Fin M) (c : Fin N) :
    ∑ q : d.contr.Idx, f (d.lhsIdx (ix2 r c) q) (d.rhsIdx (ix2 r c) q) = ∑ k : Fin K, f (ix2 r k) (ix2 k c) := by
  rw [← Equiv.sum_comp (contrEquiv1 d K hr hs).symm]
  refine Finset.sum_congr rfl fun k _ => ?_
  obtain ⟨hl, hr'⟩ := plain_idx d h1 h2 h3 h4 h5 h6 hr hs r c k
  rw [hl, hr']

end Idealize.ShloMosaic.PlainDot
-- ==== Proof.KerPayload.lean ====
/-
  The arithmetic the kernel body stores, read entry by entry over the extended reals.

  At the first four grid points the body stores a block of a weight matrix after a change of float format and a
  reshape to the same shape: over the extended reals that is the block itself (`pay1_apply`, `pay2_apply`).

  At the last four it stores a `[1000, 1024]` array whose entry `(p, q)` — `p` a class, `q` a row of the input
  block — is obtained as follows. The input block `x` (1024 rows of 1024 features) is multiplied with the whole first
  weight matrix `s0`, the product is rectified against the zero word, multiplied with the whole second weight matrix
  `s1`, and the bias row `b` is added to every row; the `[1024, 1024]` result (rows by padded classes) is transposed
  and its first 1000 rows are kept. Reading through the slice (offsets zero: the index is unchanged, with `p` seen as
  one of the 1024 padded classes), the transpose (the coordinates swap), the sum with a row broadcast, and the two
  products into a zero accumulator (each a plain inner product over its contraction index), the entry is

    `(∑ h, max (∑ d, x[q,d] · s0[d,h]) 0 · s1[h,p]) + b[0,p]`

  (`pay3_apply`), which is the specification's output unit `p` of any batch row whose features are row `q` of the
  block (`pay3_eq_logit`). No law beyond the definitions of the operations is used: in particular nothing here
  needs the entries to be finite, and the zero word of the rectifier is never evaluated.
-/
import proofs.«158633_g2000700481452298_pallasbulk_1136_19_alg».proof.Proof.Gen.KernelIdeal.Skeleton
import proofs.«158633_g2000700481452298_pallasbulk_1136_19_alg».proof.Proof.Spec
import proofs.«158633_g2000700481452298_pallasbulk_1136_19_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payload

open Idealize.ShloMosaic Idealize.ShloMosaic.ValueIdx Cert.KernelIdeal

/-! ## The two copies -/

/-- The first copy's stored value is the block it loaded: a change of format is the identity over the extended
    reals, and so is a reshape to the same shape. -/
theorem pay1_apply (v : Vec Ideal S1024x1024 .f32) (j : S1024x1024.Idx) :
    Cert.KernelIdeal.Gen.k0_pay1 (F := Ideal) v j = v j := by
  unfold Cert.KernelIdeal.Gen.k0_pay1
  exact congrFun (shapeCast_self _ _) j

/-- The second copy's stored value is the block it loaded, for the same reason. -/
theorem pay2_apply (v : Vec Ideal S1024x1024 .f32) (j : S1024x1024.Idx) :
    Cert.KernelIdeal.Gen.k0_pay2 (F := Ideal) v j = v j := by
  unfold Cert.KernelIdeal.Gen.k0_pay2
  exact congrFun (shapeCast_self _ _) j

/-! ## The two matrix products at an entry -/

/-- The first matrix product into a zero accumulator, read at row `q` and hidden unit `h`: the inner product of row
    `q` of the left operand with column `h` of the right one. -/
theorem mm1_apply (l : FVec Ideal S1024x1024 .bf16) (r : FVec Ideal S1024x4096 .bf16) (q : Fin 1024) (h : Fin 4096) :
    matmul (F := Ideal) dot_S1024x1024_S1024x4096_S1024x4096_1_0_0_1_n_n none l r
        (constant (F := Ideal) S1024x4096 .f32 0x00000000#32) (ix2 q h)
      = ∑ d : Fin 1024, l (ix2 q d) * r (ix2 d h) :=
  (Ideal.matmul_constant_zero_apply _ none l r (ix2 q h)).trans
    (PlainDot.plain_sum dot_S1024x1024_S1024x4096_S1024x4096_1_0_0_1_n_n rfl rfl rfl rfl rfl rfl (by decide) (by decide)
      (fun i k => l i * r k) q h)

/-- The second matrix product into a zero accumulator, read at row `q` and column `c`: the inner product of row `q` of
    the left operand with column `c` of the right one. -/
theorem mm2_apply (l : FVec Ideal S1024x4096 .bf16) (r : FVec Ideal S4096x1024 .bf16) (q : Fin 1024) (c : Fin 1024) :
    matmul (F := Ideal) dot_S1024x4096_S4096x1024_S1024x1024_1_0_0_1_n_n none l r
        (constant (F := Ideal) S1024x1024 .f32 0x00000000#32) (ix2 q c)
      = ∑ h : Fin 4096, l (ix2 q h) * r (ix2 h c) :=
  (Ideal.matmul_constant_zero_apply _ none l r (ix2 q c)).trans
    (PlainDot.plain_sum dot_S1024x4096_S4096x1024_S1024x1024_1_0_0_1_n_n rfl rfl rfl rfl rfl rfl (by decide) (by decide)
      (fun i k => l i * r k) q c)

/-! ## The stored logits at an entry -/

/-- Entry `(p, q)` of the array the last four grid points store: the output unit of class `p` for row `q` of the
    input block — the rectified first product, multiplied with the second weight matrix, plus the bias of class `p`.
    The class `p < 1000` indexes the 1024 padded columns of the second weight matrix and of the bias row. -/
theorem pay3_apply (x : Vec Ideal S1024x1024 .f32) (s0 : Vec Ideal S1024x4096 .bf16) (s1 : Vec Ideal S4096x1024 .bf16)
    (b : Vec Ideal S1x1024 .f32) (p : Fin 1000) (q : Fin 1024) :
    Cert.KernelIdeal.Gen.k0_pay3 (F := Ideal) x s0 s1 b (ix2 p q)
      = (∑ h : Fin 4096, max (∑ d : Fin 1024, x (ix2 q d) * s0 (ix2 d h)) (Ideal.ofBits .f32 0x00000000#32)
            * s1 (ix2 h ⟨p.val, Nat.lt_trans p.isLt (by decide)⟩))
          + b (ix2 0 ⟨p.val, Nat.lt_trans p.isLt (by decide)⟩) := by
  have hp : p.val < 1024 := Nat.lt_trans p.isLt (by decide)
  unfold Cert.KernelIdeal.Gen.k0_pay3
  -- the slice keeps rows 0..999 at offset zero: entry (p, q) of the slice is entry (p, q) of the transposed array
  refine (extractStridedSlice_apply _ _ _ (ix2 p q) (ix2 (⟨p.val, hp⟩ : Fin 1024) q) (fun a => ?_)).trans ?_
  · match a with
    | ⟨0, _⟩ => exact (Nat.zero_add _).symm
    | ⟨1, _⟩ => exact (Nat.zero_add _).symm
  -- the transpose swaps the coordinates: entry (q, p) of the sum of the second product and the broadcast bias
  refine (transpose_ix2_apply _ _ (⟨p.val, hp⟩ : Fin 1024) q).trans ?_
  refine (addf_apply _ _ _).trans ?_
  -- the bias row broadcast over the rows reads its one row at column p
  refine congrArg₂ (· + ·) ?_ (broadcastTo_1b_ab_apply b _ q ⟨p.val, hp⟩)
  -- the second product is the inner product over the hidden units ...
  refine (mm2_apply _ s1 q ⟨p.val, hp⟩).trans ?_
  refine Finset.sum_congr rfl fun h _ => ?_
  refine congrArg (· * s1 (ix2 h ⟨p.val, hp⟩)) ?_
  -- ... of the rectified first product (its change of format being the identity) with the second weight matrix
  refine (truncf_apply (ψ := .bf16) _ Gen.bitsLt_bf16_f32 (ix2 q h)).trans ?_
  refine (maximumf_apply _ _ _).trans ?_
  exact congrArg₂ max (mm1_apply _ s0 q h) rfl

/-- The same entry against the specification: if row `q` of the input block is row `r` of the whole input array
    `X`, the stored entry `(p, q)` is the specification's output unit `p` of batch row `r`, with the two scratch
    arrays as the weight matrices. -/
theorem pay3_eq_logit (X : (⟨2, ![4096, 1024]⟩ : Shape).Idx → EReal) (x : Vec Ideal S1024x1024 .f32)
    (s0 : Vec Ideal S1024x4096 .bf16) (s1 : Vec Ideal S4096x1024 .bf16) (b : Vec Ideal S1x1024 .f32)
    (p : Fin 1000) (q : Fin 1024) (r : Fin 4096) (hx : ∀ d : Fin 1024, x (ix2 q d) = X (ix2 r d)) :
    Cert.KernelIdeal.Gen.k0_pay3 (F := Ideal) x s0 s1 b (ix2 p q)
      = Cert.Spec.logit X s0 s1 b r ⟨p.val, Nat.lt_trans p.isLt (by decide)⟩ := by
  refine (pay3_apply x s0 s1 b p q).trans ?_
  unfold Cert.Spec.logit Cert.Spec.hidden
  refine congrArg (· + b (ix2 0 ⟨p.val, Nat.lt_trans p.isLt (by decide)⟩)) (Finset.sum_congr rfl fun h _ => ?_)
  refine congrArg (· * s1 (ix2 h ⟨p.val, Nat.lt_trans p.isLt (by decide)⟩)) ?_
  refine congrArg (max · (Ideal.ofBits .f32 0x00000000#32)) (Finset.sum_congr rfl fun d _ => ?_)
  exact congrArg (· * s0 (ix2 d h)) (hx d)

end Cert.KernelIdeal.Payload

end
-- ==== Proof.KerValueBlocks.lean ====
/-
  The blocks the pipeline stages, read entry by entry, and the two scratch buffers' targets as the weight matrices.

  The grid has eight points. The input window's block at a second-phase point `t` (`4 ≤ t`) is rows
  `[1024 (t - 4), 1024 (t - 4) + 1024)` of the input; the first weight matrix is staged by chunks of 1024 columns and
  the second by chunks of 1024 rows, chunk `t` at the first-phase point `t` (`t < 4`); the bias row is staged whole.
  These are the printed index maps, decided once over the eight points, and the rule that a block's entry sits in its
  array, on each axis, at the block index times the block's size plus the entry's own coordinate.

  The first scratch buffer's target holds at column `k` the reformatted chunk staged at point `k / 1024`, read at
  column `k mod 1024`; that chunk is columns `[1024 (k / 1024), …)` of the first weight matrix and the change of format
  is the identity over the extended reals, so the target IS the first weight matrix, since
  `1024 (k / 1024) + k mod 1024 = k`. Likewise, by rows, for the second.
-/
import proofs.«158633_g2000700481452298_pallasbulk_1136_19_alg».proof.Proof.KBodyData
import proofs.«158633_g2000700481452298_pallasbulk_1136_19_alg».proof.Proof.KerPayload
import Idealize.ShloMosaic.Lib.Pipeline.Value

set_option maxRecDepth 16384

noncomputable section

namespace Cert.KernelIdeal.KerValue

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## The schedule, decided over the eight points -/

/-- The zero offsets of a whole-buffer rectangle, as the constant function. -/
theorem hz2 : (![0, 0] : Fin 2 → Nat) = fun _ => 0 := funext fun a => by fin_cases a <;> rfl

/-- The printed index maps: the input's block index is `(t - 4, 0)` (truncated subtraction: `0` in the first phase), the
    first weight's `(0, min t 3)`, the second's `(min t 3, 0)`, the bias's `(0, 0)`, the output's `(0, t - 4)`. -/
theorem idx_facts : ∀ t : Fin cfg0.N,
    win0_0.index t (0 : Fin 2) = t.val - 4 ∧ win0_0.index t (1 : Fin 2) = 0
    ∧ win0_1.index t (0 : Fin 2) = 0 ∧ win0_1.index t (1 : Fin 2) = min t.val 3
    ∧ win0_2.index t (0 : Fin 2) = min t.val 3 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val - 4 :=
  (by decide +kernel : ∀ t : Fin grid0.N, _)

/-- The output window is written back exactly at the second-phase points. -/
theorem flush4 : ∀ t : Fin cfg0.N, (cfg0.win 4).flush t = true ↔ 4 ≤ t.val :=
  (by decide +kernel : ∀ t : Fin grid0.N, win0_4.flush t = true ↔ 4 ≤ t.val)

/-! ## The input windows' blocks read at an entry -/

/-- Entry `(q, d)` of the input block staged at a second-phase point `t` is entry `(1024 (t - 4) + q, d)` of the input. -/
theorem iblk0_apply (c : Dev nD) (t : Fin cfg0.N) (ht : 4 ≤ t.val) (q d : Fin 1024) :
    (iblk m c 0 t : Vec Ideal S1024x1024 .f32) (ix2 q d)
      = V m c main_arg0 (ix2 (n0 := 4096) (n1 := 1024) ⟨1024 * (t.val - 4) + q.val, by
          have := q.isLt; have := t.isLt; have : cfg0.N = 8 := N_0; omega⟩ d) := by
  obtain ⟨e0, e1, -⟩ := idx_facts t
  show V m c main_arg0 (((cfg0.win 0).blk t).view.emb (ix2 q d)) = _
  refine congrArg (V m c main_arg0) (funext fun a => Fin.ext ?_)
  match a with
  | ⟨0, _⟩ =>
    show win0_0.index t (0 : Fin 2) * 1024 + 1 * q.val = 1024 * (t.val - 4) + q.val
    omega
  | ⟨1, _⟩ =>
    show win0_0.index t (1 : Fin 2) * 1024 + 1 * d.val = d.val
    omega

/-- Entry `(r, q)` of the first-weight chunk staged at a first-phase point `t` is entry `(r, 1024 t + q)` of the first
    weight matrix. -/
theorem iblk1_apply (c : Dev nD) (t : Fin cfg0.N) (ht : t.val < 4) (r q : Fin 1024) :
    (iblk m c 1 t : Vec Ideal S1024x1024 .f32) (ix2 r q)
      = V m c main_arg1 (ix2 (n0 := 1024) (n1 := 4096) r ⟨1024 * t.val + q.val, by have := q.isLt; omega⟩) := by
  obtain ⟨-, -, e0, e1, -⟩ := idx_facts t
  show V m c main_arg1 (((cfg0.win 1).blk t).view.emb (ix2 r q)) = _
  refine congrArg (V m c main_arg1) (funext fun a => Fin.ext ?_)
  match a with
  | ⟨0, _⟩ =>
    show win0_1.index t (0 : Fin 2) * 1024 + 1 * r.val = r.val
    omega
  | ⟨1, _⟩ =>
    show win0_1.index t (1 : Fin 2) * 1024 + 1 * q.val = 1024 * t.val + q.val
    omega

/-- Entry `(q, r)` of the second-weight chunk staged at a first-phase point `t` is entry `(1024 t + q, r)` of the second
    weight matrix. -/
theorem iblk2_apply (c : Dev nD) (t : Fin cfg0.N) (ht : t.val < 4) (q r : Fin 1024) :
    (iblk m c 2 t : Vec Ideal S1024x1024 .f32) (ix2 q r)
      = V m c main_arg2 (ix2 (n0 := 4096) (n1 := 1024) ⟨1024 * t.val + q.val, by have := q.isLt; omega⟩ r) := by
  obtain ⟨-, -, -, -, e0, e1, -⟩ := idx_facts t
  show V m c main_arg2 (((cfg0.win 2).blk t).view.emb (ix2 q r)) = _
  refine congrArg (V m c main_arg2) (funext fun a => Fin.ext ?_)
  match a with
  | ⟨0, _⟩ =>
    show win0_2.index t (0 : Fin 2) * 1024 + 1 * q.val = 1024 * t.val + q.val
    omega
  | ⟨1, _⟩ =>
    show win0_2.index t (1 : Fin 2) * 1024 + 1 * r.val = r.val
    omega

/-- The bias window's block is the whole bias row at every point. -/
theorem iblk3_eq (c : Dev nD) (t : Fin cfg0.N) : (iblk m c 3 t : Vec Ideal S1x1024 .f32) = V m c main_arg3 := by
  obtain ⟨-, -, -, -, -, -, e0, e1, -⟩ := idx_facts t
  funext y
  show V m c main_arg3 (((cfg0.win 3).blk t).view.emb y) = V m c main_arg3 y
  refine congrArg (V m c main_arg3) (funext fun a => Fin.ext ?_)
  match a with
  | ⟨0, _⟩ =>
    show win0_3.index t (0 : Fin 2) * 1 + 1 * (y 0).val = (y 0).val
    omega
  | ⟨1, _⟩ =>
    show win0_3.index t (1 : Fin 2) * 1024 + 1 * (y 1).val = (y 1).val
    omega

/-! ## The scratch buffers' targets are the weight matrices -/

/-- The first scratch's target is the first weight matrix: the chunk column `k` falls in is staged at point `k / 1024`,
    where it is columns `[1024 (k / 1024), 1024 (k / 1024) + 1024)` of the matrix, and the change of format is the identity. -/
theorem tgt0_eq (c : Dev nD) : tgt0 (F := Ideal) m c = V m c main_arg1 := by
  funext j
  have hj0 : (j 0).val < 1024 := idx2_lt0 j
  have hj1 : (j 1).val < 4096 := idx2_lt1 j
  have hN : cfg0.N = 8 := N_0
  unfold tgt0
  rw [Payload.pay1_apply]
  rw [View.ld_unit_zero (S := S1024x1024) hz2]
  refine (iblk1_apply m c ⟨(j 1).val / 1024, by omega⟩ (by show (j 1).val / 1024 < 4; omega) ⟨(j 0).val, hj0⟩
    ⟨(j 1).val % 1024, Nat.mod_lt _ (by decide)⟩).trans ?_
  refine congrArg (V m c main_arg1) (funext fun a => Fin.ext ?_)
  match a with
  | ⟨0, _⟩ => rfl
  | ⟨1, _⟩ =>
    show 1024 * ((j 1).val / 1024) + (j 1).val % 1024 = (j 1).val
    omega

/-- The second scratch's target is the second weight matrix, chunked by rows in the same way. -/
theorem tgt1_eq (c : Dev nD) : tgt1 (F := Ideal) m c = V m c main_arg2 := by
  funext j
  have hj0 : (j 0).val < 4096 := idx2_lt0 j
  have hj1 : (j 1).val < 1024 := idx2_lt1 j
  have hN : cfg0.N = 8 := N_0
  unfold tgt1
  rw [Payload.pay2_apply]
  rw [View.ld_unit_zero (S := S1024x1024) hz2]
  refine (iblk2_apply m c ⟨(j 0).val / 1024, by omega⟩ (by show (j 0).val / 1024 < 4; omega)
    ⟨(j 0).val % 1024, Nat.mod_lt _ (by decide)⟩ ⟨(j 1).val, hj1⟩).trans ?_
  refine congrArg (V m c main_arg2) (funext fun a => Fin.ext ?_)
  match a with
  | ⟨0, _⟩ =>
    show 1024 * ((j 0).val / 1024) + (j 0).val % 1024 = (j 0).val
    omega
  | ⟨1, _⟩ => rfl

end Cert.KernelIdeal.KerValue

end
-- ==== Proof.KerValueFinal.lean ====
/-
  The region's output array after the run, entry by entry.

  The output array has a row per class (1000) and a column per batch row (4096). It is written back by blocks of 1024
  columns, the block of columns `[1024 (t - 4), 1024 (t - 4) + 1024)` at the second-phase point `t`. What that point
  writes back is the body's payload of the input block staged there — batch rows `[1024 (t - 4), …)` —, of the two
  scratch buffers, which hold the two weight matrices, and of the bias row; entry `(p, q)` of that payload is the
  specification's output unit `p` of batch row `1024 (t - 4) + q`. So every point writes back its block of ONE array,
  `Gt`: output unit `p` of batch row `k` at entry `(p, k)`. Column `k` lies in the block of point `4 + k / 1024`, so the
  four blocks cover the array, and the array ends holding `Gt`.
-/
import proofs.«158633_g2000700481452298_pallasbulk_1136_19_alg».proof.Proof.KerValueBlocks

set_option maxRecDepth 16384

noncomputable section

namespace Cert.KernelIdeal.KerValue

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## What the output window's array ends holding -/

/-- The output array of the region, entry by entry: row `p` (a class) and column `k` (a batch row) hold the
    specification's output unit `p` of batch row `k`. -/
def Gt (c : Dev nD) : S1000x4096.Idx → EReal := fun i =>
  Cert.Spec.logit (V m c main_arg0) (V m c main_arg1) (V m c main_arg2) (V m c main_arg3)
    ⟨(i 1).val, idx2_lt1 i⟩ ⟨(i 0).val, Nat.lt_trans (idx2_lt0 i) (by decide)⟩

/-- The specification's output unit depends on its row and class through their values only. -/
theorem logit_congr (X : (⟨2, ![4096, 1024]⟩ : Shape).Idx → EReal) (w1 : (⟨2, ![1024, 4096]⟩ : Shape).Idx → EReal)
    (w2 : (⟨2, ![4096, 1024]⟩ : Shape).Idx → EReal) (b : (⟨2, ![1, 1024]⟩ : Shape).Idx → EReal)
    (r r' : Fin 4096) (k k' : Fin 1024) (hr : r.val = r'.val) (hk : k.val = k'.val) :
    Cert.Spec.logit X w1 w2 b r k = Cert.Spec.logit X w1 w2 b r' k' := by
  obtain rfl := Fin.ext hr
  obtain rfl := Fin.ext hk
  rfl

/-- WHAT A SECOND-PHASE POINT WRITES BACK is its block of the output array `Gt`: the block at point `t` is columns
    `[1024 (t - 4), 1024 (t - 4) + 1024)`, and entry `(p, q)` of the body's payload is the output unit `p` of the input
    block's row `q`, which is batch row `1024 (t - 4) + q`; both scratch buffers hold the weight matrices there. -/
theorem flushed4_eq (c : Dev nD) (t : Fin cfg0.N) (ht : 4 ≤ t.val) :
    (dats (F := Ideal) m 0 c).flushed 4 t = ((cfg0.win 4).blk t).view.read (Elt Ideal) (Gt m c) := by
  have hN : cfg0.N = 8 := N_0
  have htN : t.val < 8 := hN ▸ t.isLt
  show (cfg0.win 4).cut (grid0.coords t) ((dats (F := Ideal) m 0 c).after 4 t) = _
  rw [after4]
  unfold outB
  rw [View.canon_unit_zero hz2]
  rw [View.ld_unit_zero (S := S1024x1024) hz2, View.ld_unit_zero (S := S1024x4096) hz2,
    View.ld_unit_zero (S := S4096x1024) hz2, View.ld_unit_zero (S := S1x1024) hz2]
  rw [tgt0_eq, tgt1_eq, iblk3_eq]
  obtain ⟨-, -, -, -, -, -, -, -, e0, e1⟩ := idx_facts t
  funext y
  obtain ⟨p, q, rfl⟩ : ∃ (p : Fin 1000) (q : Fin 1024), y = ix2 p q := ⟨y 0, y 1, eq_ix2 y⟩
  show k0_pay3 (F := Ideal) (iblk m c 0 t) (V m c main_arg1) (V m c main_arg2) (V m c main_arg3) (ix2 p q)
      = Gt m c (((cfg0.win 4).blk t).view.emb (ix2 p q))
  refine (Payload.pay3_eq_logit (V m c main_arg0) (iblk m c 0 t) (V m c main_arg1) (V m c main_arg2) (V m c main_arg3) p q
    ⟨1024 * (t.val - 4) + q.val, by have := q.isLt; omega⟩ (fun d => iblk0_apply m c t ht q d)).trans ?_
  unfold Gt
  refine logit_congr _ _ _ _ _ _ _ _ ?_ ?_
  · show 1024 * (t.val - 4) + q.val = win0_4.index t (1 : Fin 2) * 1024 + 1 * q.val
    omega
  · show p.val = win0_4.index t (0 : Fin 2) * 1000 + 1 * p.val
    omega

/-- An entry of the output array is in point `t`'s block iff each coordinate is in the block's range on its axis. -/
theorem mem_blk4 (t : Fin cfg0.N) (i : S1000x4096.Idx) :
    i ∈ ((cfg0.win 4).blk t).view.set ↔ ∀ a : Fin 2, win0_4.index t a * S1000x1024.size a ≤ (i a).val
      ∧ (i a).val < win0_4.index t a * S1000x1024.size a + S1000x1024.size a := by
  show i ∈ ((View.whole main_call0_v0).slice (win0_4.rect t)).set ↔ _
  rw [View.set_slice_whole, Rect.mem_set_unit]
  exact Iff.rfl

/-- THE COVER: column `k` of the output array lies in the block written back at point `4 + k / 1024`. -/
theorem cover4 (i : S1000x4096.Idx) :
    ∃ t : Fin cfg0.N, (cfg0.win 4).flush t = true ∧ i ∈ ((cfg0.win 4).blk t).view.set := by
  have hi0 : (i 0).val < 1000 := idx2_lt0 i
  have hi1 : (i 1).val < 4096 := idx2_lt1 i
  have hN : cfg0.N = 8 := N_0
  obtain ⟨t, ht⟩ : ∃ t : Fin cfg0.N, t.val = 4 + (i 1).val / 1024 := ⟨⟨4 + (i 1).val / 1024, by omega⟩, rfl⟩
  obtain ⟨-, -, -, -, -, -, -, -, e0, e1⟩ := idx_facts t
  refine ⟨t, (flush4 t).mpr (by omega), ?_⟩
  rw [mem_blk4]
  intro a
  match a with
  | ⟨0, _⟩ =>
    show win0_4.index t (0 : Fin 2) * 1000 ≤ (i 0).val ∧ (i 0).val < win0_4.index t (0 : Fin 2) * 1000 + 1000
    omega
  | ⟨1, _⟩ =>
    show win0_4.index t (1 : Fin 2) * 1024 ≤ (i 1).val ∧ (i 1).val < win0_4.index t (1 : Fin 2) * 1024 + 1024
    omega

/-- THE OUTPUT ARRAY AFTER THE REGION is `Gt`: every entry is written back by some second-phase point, each with its
    block of `Gt`. -/
theorem final4 (c : Dev nD) : (dats (F := Ideal) m 0 c).arrAt 4 cfg0.N = Gt m c :=
  (dats (F := Ideal) m 0 c).arrAt_eq_of_cover 4 (Gt m c) (fun t hf => flushed4_eq m c t ((flush4 t).mp hf)) cover4

end Cert.KernelIdeal.KerValue

end
-- ==== Proof.KerValueRun.lean ====
/-
  The kernel program's run, read: the result array is the specification of the argument arrays.

  After the region one host operation transposes the region's output array (a row per class, a column per batch row)
  into the result array (a row per batch row, a column per class). The region leaves the output array holding the
  specification's output unit `p` of batch row `k` at entry `(p, k)`; the transpose reads entry `(k, p)` of the result
  there, which is the specification's result array at `(k, p)`. The argument arrays are inputs of the pipeline and
  end as they were found.
-/
import proofs.«158633_g2000700481452298_pallasbulk_1136_19_alg».proof.Proof.KerValueFinal
import proofs.«158633_g2000700481452298_pallasbulk_1136_19_alg».proof.Proof.KBodyOblig

set_option maxRecDepth 16384

noncomputable section

namespace Cert.KernelIdeal.KerValue

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The host operation after the region, and the run -/

/-- THE RESULT ARRAY: the one host operation after the region transposes the region's output array, so its entry
    `(r, p)` is entry `(p, r)` of `Gt`, the specification's output unit `p` of batch row `r`. -/
theorem tail_v0 (c : Dev nD) :
    Pipeline.afterTail₀ cfgs (dats (F := Ideal) m) 0 (V0 m) [hostOps1] c main_v0
      = Cert.Spec.mlp (V m c main_arg0) (V m c main_arg1) (V m c main_arg2) (V m c main_arg3) := by
  have e : Pipeline.withArrays (cfgs 0).spec c (V0 m c) (fun w => (dats (F := Ideal) m 0 c).arrAt w (cfgs 0).N)
      (Proc.devRef .tc main_call0_v0) = Gt m c :=
    (Pipeline.withArrays_arr spec0 launch0.win.arr_inj c _ _ 4).trans (final4 m c)
  unfold Pipeline.afterTail₀
  show StableHlo.after hostOps1 _ (Proc.devRef .tc main_v0) = _
  after_results
  show transpose S4096x1000 [1, 0] (Pipeline.withArrays (cfgs 0).spec c (V0 m c)
    (fun w => (dats (F := Ideal) m 0 c).arrAt w (cfgs 0).N) (Proc.devRef .tc main_call0_v0))
    transposes_S1000x4096_S4096x1000_1_0 = _
  rw [e]
  funext i
  obtain ⟨r, p, rfl⟩ : ∃ (r : Fin 4096) (p : Fin 1000), i = ix2 r p := ⟨i 0, i 1, eq_ix2 i⟩
  refine (transpose_ix2_apply (Gt m c) _ r p).trans ?_
  rfl

/-- THE KERNEL PROGRAM'S RUN, READ: every weakly fair execution terminates, nothing faulting, with the result array
    at the specification of the four argument arrays and the argument arrays unchanged. -/
theorem run : θ_run (defs (F := Ideal)) (onTc (τ := τ) (main (F := Ideal))) ⟨m, fun _ => 0, ρ⟩ (fun r => ∀ c : Dev nD,
      r.2.mem ((c.tc : Thread nD τ).loc main_v0)
          = Cert.Spec.mlp (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).2 main_v0 (Pipeline.mem_restRefs_of main_v0 rfl (by decide))).trans (tail_v0 m c),
      ((h c).1 0).trans (((dats (F := Ideal) m 0 c).arrAt_in 0 rfl _).trans ((A_eq m c 0).trans (V_main_arg0 m c))),
      ((h c).1 1).trans (((dats (F := Ideal) m 0 c).arrAt_in 1 rfl _).trans ((A_eq m c 1).trans (V_main_arg1 m c))),
      ((h c).1 2).trans (((dats (F := Ideal) m 0 c).arrAt_in 2 rfl _).trans ((A_eq m c 2).trans (V_main_arg2 m c))),
      ((h c).1 3).trans (((dats (F := Ideal) m 0 c).arrAt_in 3 rfl _).trans ((A_eq m c 3).trans (V_main_arg3 m c)))⟩)
    (Body.run_main (F := Ideal) m ρ)

end Cert.KernelIdeal.KerValue

end
-- ==== Proof.RefPayload.lean ====
/-
  The reference body's arithmetic, read at an index.

  The body of the reference's one kernel takes a block `x0` of 256 input rows, the whole first weight matrix `x1`, the
  whole second weight matrix `x2` and the bias row `x3`, and stores the 256 x 1024 block

      (max (x0 · x1) 0) · x2 + x3   (the bias row added to every row).

  Over the extended reals each matrix product into the zero accumulator is the plain sum over the contracted axis of the
  products of the operands' entries, the rectifier is the maximum with the zero word entry by entry, and the broadcast
  bias reads the row's one entry of the column. So the stored block at row `p`, column `q` is

      (∑ h, max (∑ d, x0[p,d] · x1[d,h]) 0 · x2[h,q]) + x3[0,q],

  which is what this module proves, first for the hidden layer alone and then for the whole body.
-/
import proofs.«158633_g2000700481452298_pallasbulk_1136_19_alg».proof.Proof.Gen.ReferenceIdeal.Skeleton
import proofs.«158633_g2000700481452298_pallasbulk_1136_19_alg».proof.Proof.LibPlainDot
import Idealize.ShloMosaic.Lib.ValueLayout
import Idealize.ShloMosaic.PureOps.Ideal.Laws

noncomputable section

namespace Cert.ReferenceIdeal.RefValue

open Idealize.ShloMosaic Idealize.ShloMosaic.ValueIdx Idealize.ShloMosaic.PlainDot
open Cert.ReferenceIdeal Cert.ReferenceIdeal.Gen

/-- The hidden layer of a block: the first product into the zero accumulator, rectified against the zero word, at row
    `p` and hidden unit `h` is the maximum of the row's inner product with column `h` of the first weight matrix and
    the zero word. -/
theorem hidden_apply (x0 : FVec Ideal S256x1024 .f32) (x1 : FVec Ideal S1024x4096 .f32) (p : Fin 256) (h : Fin 4096) :
    maximumf (matmul (F := Ideal) dot_S256x1024_S1024x4096_S256x4096_1_0_0_1_n_n none x0 x1 (constant (F := Ideal) S256x4096 .f32 0x00000000#32))
        (broadcast S256x4096 (Scalar.ofBits (F := Ideal) .f32 0x00000000#32)) (ix2 p h)
      = max (∑ d : Fin 1024, (x0 (ix2 p d) : EReal) * x1 (ix2 d h)) (Ideal.ofBits .f32 0x00000000#32) := by
  refine congrArg (fun s : EReal => max s (Ideal.ofBits .f32 0x00000000#32)) ?_
  refine (Ideal.matmul_constant_zero_apply dot_S256x1024_S1024x4096_S256x4096_1_0_0_1_n_n none x0 x1 (ix2 p h)).trans ?_
  exact plain_sum dot_S256x1024_S1024x4096_S256x4096_1_0_0_1_n_n rfl rfl rfl rfl rfl rfl rfl rfl
    (fun i j => (x0 i : EReal) * x1 j) p h

/-- THE BODY'S STORED BLOCK AT AN INDEX: the second product of the hidden layer with the second weight matrix, plus the
    bias row's entry of the column. -/
theorem pay_apply (x0 : Vec Ideal S256x1024 .f32) (x1 : Vec Ideal S1024x4096 .f32) (x2 : Vec Ideal S4096x1024 .f32)
    (x3 : Vec Ideal S1x1024 .f32) (p : Fin 256) (q : Fin 1024) :
    k0_pay1 (F := Ideal) x0 x1 x2 x3 (ix2 p q)
      = (∑ h : Fin 4096, max (∑ d : Fin 1024, (x0 (ix2 p d) : EReal) * x1 (ix2 d h)) (Ideal.ofBits .f32 0x00000000#32) * x2 (ix2 h q))
        + x3 (ix2 (0 : Fin 1) q) := by
  unfold k0_pay1
  refine congrArg₂ (fun s b : EReal => s + b) ?_ ?_
  · refine (Ideal.matmul_constant_zero_apply dot_S256x4096_S4096x1024_S256x1024_1_0_0_1_n_n none _ x2 (ix2 p q)).trans ?_
    refine (plain_sum dot_S256x4096_S4096x1024_S256x1024_1_0_0_1_n_n rfl rfl rfl rfl rfl rfl rfl rfl
      (fun i j => (maximumf (matmul (F := Ideal) (φ₁ := .f32) (φ₂ := .f32) dot_S256x1024_S1024x4096_S256x4096_1_0_0_1_n_n none x0 x1 (constant (F := Ideal) S256x4096 .f32 0x00000000#32))
        (broadcast S256x4096 (Scalar.ofBits (F := Ideal) .f32 0x00000000#32)) i : EReal) * x2 j) p q).trans ?_
    exact Finset.sum_congr rfl fun h _ => congrArg (fun s : EReal => s * x2 (ix2 h q)) (hidden_apply x0 x1 p h)
  · exact broadcastTo_1b_ab_apply x3 broadcasts_S1x1024_S256x1024 p q

end Cert.ReferenceIdeal.RefValue

end
-- ==== Proof.RefBlocks.lean ====
/-
  From the blocks the reference's kernel writes to its whole result array.

  The reference's one kernel runs on 16 grid points. Point `t` reads rows `256·t … 256·t + 255` of the input, the whole of
  both weight matrices and the bias row, and writes rows `256·t … 256·t + 255` of a 4096 x 1024 array. By the body's
  arithmetic (`pay_apply`) the entry it writes at row `p` of its block, column `q`, is output unit `q` of batch row
  `256·t + p` (`Cert.Spec.logit`). So every point writes a block of ONE function of the array index, `padded`, and the 16
  blocks cover the array: the array after the run is `padded` of the argument arrays.
-/
import proofs.«158633_g2000700481452298_pallasbulk_1136_19_alg».proof.Proof.Gen.ReferenceIdeal.Frame
import proofs.«158633_g2000700481452298_pallasbulk_1136_19_alg».proof.Proof.Spec
import proofs.«158633_g2000700481452298_pallasbulk_1136_19_alg».proof.Proof.RefPayload
import Idealize.ShloMosaic.Lib.Pipeline.Value

noncomputable section

namespace Cert.ReferenceIdeal.RefValue

open Idealize.ShloMosaic Idealize.ShloMosaic.TcCoe Idealize.ShloMosaic.ValueIdx Idealize.SL.Sem
open Idealize.ShloMosaic.Pipeline (Dat)
open Cert.ReferenceIdeal Cert.ReferenceIdeal.Gen

variable (m : (ℓ : Loc nD τ sig) → Buf (Elt Ideal) ℓ)

/-- The padded result: row `r`, column `c` of the 4096 x 1024 array holds output unit `c` of batch row `r`. -/
def padded (x : S4096x1024.Idx → EReal) (w1 : S1024x4096.Idx → EReal) (w2 : S4096x1024.Idx → EReal)
    (b : S1x1024.Idx → EReal) : S4096x1024.Idx → EReal :=
  fun i => Cert.Spec.logit x w1 w2 b (i 0) (i 1)

/-- The body's stored block is a block of output units: if the input block's row `p` is row `r` of the input array and
    the other three blocks are the whole weight matrices and the bias row, the entry stored at `(p, q)` is output unit
    `q` of batch row `r`. -/
theorem pay_eq_logit (X : S4096x1024.Idx → EReal) (W1 : S1024x4096.Idx → EReal) (W2 : S4096x1024.Idx → EReal)
    (B : S1x1024.Idx → EReal) (x0 : Vec Ideal S256x1024 .f32) (x1 : Vec Ideal S1024x4096 .f32)
    (x2 : Vec Ideal S4096x1024 .f32) (x3 : Vec Ideal S1x1024 .f32) (p : Fin 256) (q : Fin 1024) (r : Fin 4096)
    (h0 : ∀ d : Fin 1024, x0 (ix2 p d) = X (ix2 r d))
    (h1 : ∀ (d : Fin 1024) (h : Fin 4096), x1 (ix2 d h) = W1 (ix2 d h))
    (h2 : ∀ h : Fin 4096, x2 (ix2 h q) = W2 (ix2 h q))
    (h3 : x3 (ix2 (0 : Fin 1) q) = B (ix2 (0 : Fin 1) q)) :
    k0_pay1 (F := Ideal) x0 x1 x2 x3 (ix2 p q) = Cert.Spec.logit X W1 W2 B r q := by
  rw [pay_apply]
  unfold Cert.Spec.logit Cert.Spec.hidden
  simp only [h0, h1, h2, h3]

theorem hz : (![0, 0] : Fin 2 → Nat) = fun _ => 0 := funext fun a => by fin_cases a <;> rfl

/-- The printed index maps, decided over the 16 points: the input window moves with the output window along the rows, and
    every other block index is zero (the weight matrices and the bias row are staged whole; the blocks span all
    columns). -/
theorem idx_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) ≤ 15 ∧ win0_4.index t (1 : Fin 2) = 0 :=
  (by decide +kernel : ∀ t : Fin grid0.N, _)

/-- Every one of the 16 row blocks is some point's. -/
theorem idx_onto : ∀ q0 : Fin 16, ∃ t : Fin cfg0.N, win0_4.index t = ![q0.val, 0] :=
  (by decide +kernel : ∀ q0 : Fin 16, ∃ t : Fin grid0.N, win0_4.index t = ![q0.val, 0])

/-- The input block at point `t`: its row `p` is row `256 · (block index) + p` of the input array. -/
theorem iblk0_apply (c : Dev nD) (t : Fin cfg0.N) (p : Fin 256) (d : Fin 1024) (r : Fin 4096)
    (hr : r.val = win0_4.index t (0 : Fin 2) * 256 + p.val) :
    (iblk m c 0 t : Vec Ideal S256x1024 .f32) (ix2 p d) = (V m c main_arg0 : S4096x1024.Idx → EReal) (ix2 r d) := by
  obtain ⟨e0, e1, -⟩ := idx_facts t
  unfold iblk
  rw [View.read_apply]
  show V m c main_arg0 _ = V m c main_arg0 _
  refine congrArg (V m c main_arg0) ?_
  funext a
  apply Fin.ext
  match a with
  | ⟨0, _⟩ => show win0_0.index t (0 : Fin 2) * 256 + 1 * p.val = r.val; omega
  | ⟨1, _⟩ => show win0_0.index t (1 : Fin 2) * 1024 + 1 * d.val = d.val; omega

/-- The first weight matrix is staged whole. -/
theorem iblk1_apply (c : Dev nD) (t : Fin cfg0.N) (d : Fin 1024) (h : Fin 4096) :
    (iblk m c 1 t : Vec Ideal S1024x4096 .f32) (ix2 d h) = (V m c main_arg1 : S1024x4096.Idx → EReal) (ix2 d h) := by
  obtain ⟨-, -, e0, e1, -⟩ := idx_facts t
  unfold iblk
  rw [View.read_apply]
  show V m c main_arg1 _ = V m c main_arg1 _
  refine congrArg (V m c main_arg1) ?_
  funext a
  apply Fin.ext
  match a with
  | ⟨0, _⟩ => show win0_1.index t (0 : Fin 2) * 1024 + 1 * d.val = d.val; omega
  | ⟨1, _⟩ => show win0_1.index t (1 : Fin 2) * 4096 + 1 * h.val = h.val; omega

/-- The second weight matrix is staged whole. -/
theorem iblk2_apply (c : Dev nD) (t : Fin cfg0.N) (h : Fin 4096) (q : Fin 1024) :
    (iblk m c 2 t : Vec Ideal S4096x1024 .f32) (ix2 h q) = (V m c main_arg2 : S4096x1024.Idx → EReal) (ix2 h q) := by
  obtain ⟨-, -, -, -, e0, e1, -⟩ := idx_facts t
  unfold iblk
  rw [View.read_apply]
  show V m c main_arg2 _ = V m c main_arg2 _
  refine congrArg (V m c main_arg2) ?_
  funext a
  apply Fin.ext
  match a with
  | ⟨0, _⟩ => show win0_2.index t (0 : Fin 2) * 4096 + 1 * h.val = h.val; omega
  | ⟨1, _⟩ => show win0_2.index t (1 : Fin 2) * 1024 + 1 * q.val = q.val; omega

/-- The bias row is staged whole. -/
theorem iblk3_apply (c : Dev nD) (t : Fin cfg0.N) (q : Fin 1024) :
    (iblk m c 3 t : Vec Ideal S1x1024 .f32) (ix2 (0 : Fin 1) q) = (V m c main_arg3 : S1x1024.Idx → EReal) (ix2 (0 : Fin 1) q) := by
  obtain ⟨-, -, -, -, -, -, e0, e1, -⟩ := idx_facts t
  unfold iblk
  rw [View.read_apply]
  show V m c main_arg3 _ = V m c main_arg3 _
  refine congrArg (V m c main_arg3) ?_
  funext a
  apply Fin.ext
  match a with
  | ⟨0, _⟩ => show win0_3.index t (0 : Fin 2) * 1 + 1 * 0 = 0; omega
  | ⟨1, _⟩ => show win0_3.index t (1 : Fin 2) * 1024 + 1 * q.val = q.val; omega

/-- What point `t` stores at `(p, q)` of its block is the padded result at the array index under it. -/
theorem point_eq (c : Dev nD) (t : Fin cfg0.N) (j : S256x1024.Idx) :
    k0_pay1 (F := Ideal) (iblk m c 0 t) (iblk m c 1 t) (iblk m c 2 t) (iblk m c 3 t) j
      = padded (V m c main_arg0) (V m c main_arg1) (V m c main_arg2) (V m c main_arg3) (((cfg0.win 4).blk t).view.emb j) := by
  obtain ⟨p, q, rfl⟩ : ∃ (p : Fin 256) (q : Fin 1024), j = ix2 p q := ⟨j 0, j 1, eq_ix2 j⟩
  obtain ⟨-, -, -, -, -, -, -, -, e0, e1⟩ := idx_facts t
  have hemb : ((cfg0.win 4).blk t).view.emb (ix2 p q)
      = (ix2 (⟨win0_4.index t (0 : Fin 2) * 256 + p.val, by have := p.isLt; omega⟩ : Fin 4096) q : S4096x1024.Idx) := by
    funext a
    apply Fin.ext
    match a with
    | ⟨0, _⟩ => show win0_4.index t (0 : Fin 2) * 256 + 1 * p.val = win0_4.index t (0 : Fin 2) * 256 + p.val; omega
    | ⟨1, _⟩ => show win0_4.index t (1 : Fin 2) * 1024 + 1 * q.val = q.val; omega
  rw [hemb]
  exact pay_eq_logit (V m c main_arg0) (V m c main_arg1) (V m c main_arg2) (V m c main_arg3)
    (iblk m c 0 t) (iblk m c 1 t) (iblk m c 2 t) (iblk m c 3 t) p q _
    (fun d => iblk0_apply m c t p d _ rfl) (fun d h => iblk1_apply m c t d h) (fun h => iblk2_apply m c t h q)
    (iblk3_apply m c t q)

/-- WHAT POINT `t` WRITES BACK is block `t` of the padded result of the argument arrays as the region finds them. -/
theorem flushed_eq (c : Dev nD) (t : Fin cfg0.N) :
    (dats m 0 c).flushed 4 t = ((cfg0.win 4).blk t).view.read (Elt Ideal)
      (padded (V m c main_arg0) (V m c main_arg1) (V m c main_arg2) (V m c main_arg3)) := by
  show (cfg0.win 4).cut (grid0.coords t) ((dats m 0 c).after 4 t) = _
  rw [after0_4]
  unfold out0_4
  rw [View.canon_unit_zero hz]
  simp only [View.ld_unit_zero (S := S256x1024) hz, View.ld_unit_zero (S := S1024x4096) hz,
    View.ld_unit_zero (S := S4096x1024) hz, View.ld_unit_zero (S := S1x1024) hz]
  funext j
  exact point_eq m c t j

/-- An index of the array is in point `t`'s block iff each coordinate is in the block's range on its axis. -/
theorem mem_blk (t : Fin cfg0.N) (i : S4096x1024.Idx) :
    i ∈ ((cfg0.win 4).blk t).view.set ↔ ∀ a : Fin 2, win0_4.index t a * S256x1024.size a ≤ (i a).val ∧ (i a).val < win0_4.index t a * S256x1024.size a + S256x1024.size a := by
  show i ∈ ((View.whole main_call0_v0).slice (win0_4.rect t)).set ↔ _
  rw [View.set_slice_whole, Rect.mem_set_unit]
  exact Iff.rfl

/-- Every index of the array is in some point's block: row `r` is in the block of index `r / 256`. -/
theorem cover (i : S4096x1024.Idx) : ∃ t : Fin cfg0.N, (cfg0.win 4).flush t = true ∧ i ∈ ((cfg0.win 4).blk t).view.set := by
  have hi0 : (i 0).val < 4096 := (i 0).isLt
  have hi1 : (i 1).val < 1024 := (i 1).isLt
  obtain ⟨t, ht⟩ := idx_onto ⟨(i 0).val / 256, by omega⟩
  have q0 : win0_4.index t (0 : Fin 2) = (i 0).val / 256 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 1024 ≤ (i 1).val ∧ (i 1).val < win0_4.index t (1 : Fin 2) * 1024 + 1024; omega

/-- THE ARRAY after the region: the padded result of the argument arrays. -/
theorem final (c : Dev nD) : (dats m 0 c).arrAt 4 cfg0.N
    = padded (V m c main_arg0) (V m c main_arg1) (V m c main_arg2) (V m c main_arg3) :=
  (dats m 0 c).arrAt_eq_of_cover 4 _ (fun t _ => flushed_eq m c t) cover

end Cert.ReferenceIdeal.RefValue

end
-- ==== Proof.RefValue.lean ====
/-
  The reference's run, read: its result is the specification's array.

  After its one kernel the reference keeps the first 1000 of the 1024 columns of the kernel's 4096 x 1024 result. The
  kernel's result is the padded array of output units (`final`), so the kept part at row `r`, column `c < 1000` is
  output unit `c` of batch row `r`: `Cert.Spec.mlp` of the four argument arrays. The arguments themselves are staged
  by the kernel and never written back, so they end as they were launched.
-/
import proofs.«158633_g2000700481452298_pallasbulk_1136_19_alg».proof.Proof.RefBlocks

noncomputable section

namespace Cert.ReferenceIdeal.RefValue

open Idealize.ShloMosaic Idealize.ShloMosaic.TcCoe Idealize.ShloMosaic.ValueIdx Idealize.SL.Sem
open Idealize.ShloMosaic.Pipeline (Dat)
open Cert.ReferenceIdeal Cert.ReferenceIdeal.Gen

variable (m : (ℓ : Loc nD τ sig) → Buf (Elt Ideal) ℓ) (ρ : Dev nD → PrngReg)

/-- The result buffer is unscoped and is no window's array: the run states it among the buffers the pipeline bypasses. -/
theorem v0_rest : main_v0 ∈ Pipeline.restRefs sig (cfgs 0).spec :=
  Pipeline.mem_restRefs_of main_v0 (by decide) (by decide)

/-- The first 1000 columns of the padded result are the specification's array. -/
theorem slice_padded (x : S4096x1024.Idx → EReal) (w1 : S1024x4096.Idx → EReal) (w2 : S4096x1024.Idx → EReal)
    (b : S1x1024.Idx → EReal) :
    extractStridedSlice S4096x1000 ![0, 0] (padded x w1 w2 b) slices_S4096x1024_S4096x1000_0_0 = Cert.Spec.mlp x w1 w2 b := by
  funext i
  obtain ⟨r, c, rfl⟩ : ∃ (r : Fin 4096) (c : Fin 1000), i = ix2 r c := ⟨i 0, i 1, eq_ix2 i⟩
  exact (slice2_axis1_apply 0 (padded x w1 w2 b) slices_S4096x1024_S4096x1000_0_0 r c
    (⟨c.val, Nat.lt_of_lt_of_le c.isLt (by decide)⟩ : Fin 1024) (Nat.zero_add _).symm).trans rfl

/-- What the line after the kernel leaves in the result buffer: the slice of the kernel's array, which is the padded
    result of the arguments. -/
theorem tail_eq (c : Dev nD) :
    Pipeline.afterTail₀ cfgs (dats m) 0 (V0 m) [hostOps1] c main_v0
      = Cert.Spec.mlp (m ((c.tc : Thread nD τ).loc main_arg0)) (m ((c.tc : Thread nD τ).loc main_arg1))
          (m ((c.tc : Thread nD τ).loc main_arg2)) (m ((c.tc : Thread nD τ).loc main_arg3)) := by
  unfold Pipeline.afterTail₀
  show StableHlo.after hostOps1 _ (Proc.devRef .tc main_v0) = _
  after_results
  rw [(Pipeline.withArrays_arr spec0 launch0.win.arr_inj c _ _ 4).trans (final m c)]
  exact slice_padded _ _ _ _

/-- THE REFERENCE'S RUN: every weakly fair execution of @main terminates with the result buffer at the specification's
    array of the arguments and the four arguments as launched. -/
theorem run : θ_run defs (onTc (τ := τ) (main (F := Ideal))) ⟨m, fun _ => 0, ρ⟩ (fun r => ∀ c : Dev nD,
      r.2.mem ((c.tc : Thread nD τ).loc main_v0)
        = Cert.Spec.mlp (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_v0 v0_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.ReferenceIdeal.RefValue

end
-- ==== Proof.lean ====
/-
  A fused two-layer perceptron head, computed two ways, and why the two agree over the extended reals.

  Both programs compute, for batch row `r < 4096` and class `c < 1000`,
      out[r, c] = (∑ h < 4096, max (∑ d < 1024, x[r, d] · W1[d, h]) 0 · W2[h, c]) + b[0, c]
  (`Cert.Spec.mlp`). The reference does it in one grid of sixteen row blocks, each block a product with the whole
  first weight matrix, a rectifier, a product with the whole second weight matrix and the bias, followed by a slice
  of the 1024 padded columns to the first 1000. The kernel runs a grid of eight points: the first four copy the two
  weight matrices, one 1024-wide chunk per point, into two scratch buffers (a change of float format only, which
  over the extended reals is the identity); the last four each take a block of 1024 input rows, multiply through the
  two scratch buffers, add the bias, transpose, and keep the first 1000 rows of the transposed block, so that the
  kernel's output array is the result's transpose, which a final host transpose undoes. The sums are the same sums
  in both programs, so no law of the extended reals beyond the operations' definitions is needed, and the
  precondition (finite inputs) is never opened.
  The kernel's frames (at the word level and over the extended reals) rest on an invariant that follows both
  scratch buffers from point to point: before point `n` each agrees with the (reformatted) weight matrix on its
  first `n` chunks. The reference's frame is its generated run. The idealized kernel differs from the word-level
  one by no rewrite, so that conjunct is trivial.
-/
import proofs.«158633_g2000700481452298_pallasbulk_1136_19_alg».proof.Defs
import proofs.«158633_g2000700481452298_pallasbulk_1136_19_alg».proof.Proof.Gen.Kernel
import proofs.«158633_g2000700481452298_pallasbulk_1136_19_alg».proof.Proof.Gen.KernelIdeal
import proofs.«158633_g2000700481452298_pallasbulk_1136_19_alg».proof.Proof.Gen.ReferenceIdeal
import proofs.«158633_g2000700481452298_pallasbulk_1136_19_alg».proof.Proof.Gen.ReferenceIdeal.Frame
import proofs.«158633_g2000700481452298_pallasbulk_1136_19_alg».proof.Proof.Gen.Pre_finite_inputs
import proofs.«158633_g2000700481452298_pallasbulk_1136_19_alg».proof.Proof.KWordOblig
import proofs.«158633_g2000700481452298_pallasbulk_1136_19_alg».proof.Proof.KBodyOblig
import proofs.«158633_g2000700481452298_pallasbulk_1136_19_alg».proof.Proof.KerValueRun
import proofs.«158633_g2000700481452298_pallasbulk_1136_19_alg».proof.Proof.RefValue
import Idealize.ShloMosaic.Adequacy
import Idealize.ShloMosaic.Init

noncomputable section

namespace Cert.Proof

open Idealize.ShloMosaic Idealize.SL.Sem

/-- The word-level kernel runs and leaves its arguments unchanged: the tracked-scratch run at the word-level
    instance. -/
theorem frame_kernel : Cert.frame_Kernel := fun m ρ _ => Cert.Kernel.Body.frame (F := Bits) m ρ

/-- The same run over the extended reals. -/
theorem frame_kernelIdeal : Cert.frame_KernelIdeal := fun m ρ _ => Cert.KernelIdeal.Body.frame (F := Ideal) m ρ

/-- The reference's frame is generated whole. -/
theorem frame_referenceIdeal : Cert.frame_ReferenceIdeal := fun m ρ _ => Cert.ReferenceIdeal.Gen.frame m ρ

/-- The idealization rewrote no operation. -/
theorem preserves : Cert.preserves_Kernel_KernelIdeal := trivial

/-- Run from memories that agree on the four arguments, both programs end with the result array at the
    perceptron head of the arguments. -/
theorem algebraic : Cert.algebraic_KernelIdeal_ReferenceIdeal := by
  intro m ρ m' ρ' _ hagree
  refine ⟨fun c => Cert.Spec.mlp (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.KerValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
